-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x4096x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x4096x1024 : Shape := ⟨3, ![4, 4096, 1024]⟩
abbrev S1024x1024 : Shape := ⟨2, ![1024, 1024]⟩
abbrev S1024 : Shape := ⟨1, ![1024]⟩
abbrev S1x1024 : Shape := ⟨2, ![1, 1024]⟩
abbrev S1x512x1024 : Shape := ⟨3, ![1, 512, 1024]⟩
abbrev S512x1024 : Shape := ⟨2, ![512, 1024]⟩
abbrev S1x1024x1024 : Shape := ⟨3, ![1, 1024, 1024]⟩

abbrev nBuf : Space → Nat
  | .hbm => 17
  | .vmem => 22
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S4x4096x1024, .bf16⟩
  | .hbm, ⟨14, _⟩ => ⟨S4x4096x1024, .bf16⟩
  | .hbm, ⟨15, _⟩ => ⟨S4x4096x1024, .bf16⟩
  | .hbm, ⟨16, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x1024, .bf16⟩
  | .local _ .vmem, ⟨17, _⟩ => ⟨S1x1024x1024, .bf16⟩
  | .local _ .vmem, ⟨18, _⟩ => ⟨S1x1024x1024, .bf16⟩
  | .local _ .vmem, ⟨19, _⟩ => ⟨S1x1024x1024, .bf16⟩
  | .local _ .vmem, ⟨20, _⟩ => ⟨S1x1024x1024, .f32⟩
  | .local _ .vmem, ⟨21, _⟩ => ⟨S1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨3, ![4, 4, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  bitsLt_bf16_f32 : FTy.bits .bf16 < FTy.bits .f32
  shapeCasts_S1024_S1x1024 : S1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S512x1024_S1024x1024_S512x1024_1_0_0_1_n_n_wf : DotDims.WF S512x1024 S1024x1024 S512x1024 [1] [0] [0] [1] [] []
  dot_S1024x1024_S1024x1024_S1024x1024_1_1_0_0_n_n_wf : DotDims.WF S1024x1024 S1024x1024 S1024x1024 [1] [1] [0] [0] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x4096x1024.size a
  hwx0_0 : ∀ i : grid0.Coords, EltTy.bits .f32 = 32 ∨ (Rect.block (s := S4x4096x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1024.size a ≤ S4x4096x1024.size a
  hwx0_7 : ∀ i : grid0.Coords, EltTy.bits .bf16 = 32 ∨ (Rect.block (s := S4x4096x1024) S1x512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512x1024.size a ≤ S4x4096x1024.size a
  hwx0_8 : ∀ i : grid0.Coords, EltTy.bits .bf16 = 32 ∨ (Rect.block (s := S4x4096x1024) S1x512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x1024.size a ≤ S4x4096x1024.size a
  hwx0_9 : ∀ i : grid0.Coords, EltTy.bits .bf16 = 32 ∨ (Rect.block (s := S4x4096x1024) S1x512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x4096x1024.size a
  hwx1_0 : ∀ i : grid1.Coords, EltTy.bits .bf16 = 32 ∨ (Rect.block (s := S4x4096x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S4x4096x1024.size a
  hwx1_1 : ∀ i : grid1.Coords, EltTy.bits .bf16 = 32 ∨ (Rect.block (s := S4x4096x1024) S1x1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S4x4096x1024.size a
  hwx1_2 : ∀ i : grid1.Coords, EltTy.bits .bf16 = 32 ∨ (Rect.block (s := S4x4096x1024) S1x1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x4096x1024.size a
  hwx1_3 : ∀ i : grid1.Coords, EltTy.bits .f32 = 32 ∨ (Rect.block (s := S4x4096x1024) S1x1024x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6_0) S1x512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_1) S1x512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_2) S1x512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v6_0) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6_2) S1x1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S4x4096x4096 : Shape := ⟨3, ![4, 4096, 4096]⟩

abbrev nBuf : Space → Nat
  | .hbm => 35
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x4096x1024, .f32⟩
  | .hbm, ⟨8, _⟩ => ⟨S1x1x1024, .f32⟩
  | .hbm, ⟨9, _⟩ => ⟨S4x4096x1024, .f32⟩
  | .hbm, ⟨10, _⟩ => ⟨S4x4096x1024, .f32⟩
  | .hbm, ⟨11, _⟩ => ⟨S4x4096x1024, .f32⟩
  | .hbm, ⟨12, _⟩ => ⟨S1x1x1024, .f32⟩
  | .hbm, ⟨13, _⟩ => ⟨S4x4096x1024, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4x4096x4096, .f32⟩
  | .hbm, ⟨24, _⟩ => ⟨S4x4096x4096, .f32⟩
  | .hbm, ⟨25, _⟩ => ⟨S4x4096x4096, .f32⟩
  | .hbm, ⟨26, _⟩ => ⟨S4x4096x4096, .f32⟩
  | .hbm, ⟨27, _⟩ => ⟨S4x4096x4096, .f32⟩
  | .hbm, ⟨28, _⟩ => ⟨S_, .f32⟩
  | .hbm, ⟨29, _⟩ => ⟨S4x4096x4096, .f32⟩
  | .hbm, ⟨30, _⟩ => ⟨S4x4096x4096, .f32⟩
  | .hbm, ⟨31, _⟩ => ⟨S_, .f32⟩
  | .hbm, ⟨32, _⟩ => ⟨S4x4096x4096, .f32⟩
  | .hbm, ⟨33, _⟩ => ⟨S4x4096x4096, .f32⟩
  | .hbm, ⟨34, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  bcast_S_S4x4096x4096 : S_.BroadcastsInDim S4x4096x4096 (![] : Fin 0 → Fin S4x4096x4096.rank)
  dot_S4x4096x1024_S1024x1024_S4x4096x1024_2_0_01_1_n_n_wf : DotDims.WF S4x4096x1024 S1024x1024 S4x4096x1024 [2] [0] [0, 1] [1] [] []
  dot_S4x4096x1024_S4x4096x1024_S4x4096x4096_2_2_1_1_0_0_wf : DotDims.WF S4x4096x1024 S4x4096x1024 S4x4096x4096 [2] [2] [1] [1] [0] [0]
  dot_S4x4096x4096_S4x4096x1024_S4x4096x1024_2_1_1_2_0_0_wf : DotDims.WF S4x4096x4096 S4x4096x1024 S4x4096x1024 [2] [1] [1] [2] [0] [0]

variable [Facts₀]

def dot_S4x4096x1024_S1024x1024_S4x4096x1024_2_0_01_1_n_n : DotDims S4x4096x1024 S1024x1024 S4x4096x1024 where
  lhsContracting := [2]
  rhsContracting := [0]
  lhsNonContracting := [0, 1]
  rhsNonContracting := [1]
  lhsBatch := []
  rhsBatch := []
  wf := dot_S4x4096x1024_S1024x1024_S4x4096x1024_2_0_01_1_n_n_wf
def dot_S4x4096x1024_S4x4096x1024_S4x4096x4096_2_2_1_1_0_0 : DotDims S4x4096x1024 S4x4096x1024 S4x4096x4096 where
  lhsContracting := [2]
  rhsContracting := [2]
  lhsNonContracting := [1]
  rhsNonContracting := [1]
  lhsBatch := [0]
  rhsBatch := [0]
  wf := dot_S4x4096x1024_S4x4096x1024_S4x4096x4096_2_2_1_1_0_0_wf
def dot_S4x4096x4096_S4x4096x1024_S4x4096x1024_2_1_1_2_0_0 : DotDims S4x4096x4096 S4x4096x1024 S4x4096x1024 where
  lhsContracting := [2]
  rhsContracting := [1]
  lhsNonContracting := [1]
  rhsNonContracting := [2]
  lhsBatch := [0]
  rhsBatch := [0]
  wf := dot_S4x4096x4096_S4x4096x1024_S4x4096x1024_2_1_1_2_0_0_wf

class Facts : Prop extends Facts₀ where

variable [Facts]
-- ==== Proof.KernelRun.lean ====
/-
  The idealized kernel's run with its result named.

  @main is a stretch of host operations (the weights' change of format, the biases' reshape) and two kernel regions.
  Every weakly fair execution terminates without a fault, and at the end every buffer that outlives the regions holds
  what the fold through the three segments leaves in it: the launch contents, then the host operations' results, then
  each region's arrays at what its write-backs leave. In particular the result array holds the second region's
  write-backs folded over all its grid points, and the seven arguments are as launched.
-/
import proofs.«105858_j72662256714429_2_alg».proof.Proof.Gen.KernelIdeal.Frame

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every buffer that outlives the regions at
    the contents the fold through @main's segments leaves (`W3`). -/
theorem run_bufs : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The result array ends at the second region's write-backs folded over its whole grid, and the arguments as launched. -/
theorem run_result : θ_run defs (onTc (τ := τ) (main (F := F))) ⟨m, fun _ => 0, ρ⟩ (fun r => ∀ c : Dev nD,
      r.2.mem ((c.tc : Thread nD τ).loc main_v7) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun s h c =>
      ⟨(h c _ (mem_uc main_v7 (by decide))).trans (W3_arr m ρ c 3),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)
    (run_bufs m ρ)

end Cert.KernelRun

end
-- ==== Proof.SigmoidAttention.lean ====
/-
  Sigmoid attention over linear projections, entry by entry, as functions of the seven argument arrays.

  A batch holds 4 sequences of 4096 rows of 1024 features. Queries, keys and values are the projections
  `X W + β` of the rows. The weight of key row `k` for query row `q` is the logistic function of their
  score, the inner product over the 1024 features times a scale `c`; there is no normalisation over the keys.
  The result's entry `(b, q, e)` is the sum over the 4096 key rows of the weight times the value's entry `(b, k, e)`.

  Two arrangements of the same quantity are stated here. In one the scale multiplies the finished inner product
  (`scoreAfter`) and the keys are summed in one pass (`attendWhole`). In the other the scale multiplies every query
  entry before the inner product (`scoreBefore`) and the keys are summed a block of 1024 at a time, the blocks'
  contributions accumulated in order (`attendBlocks`).
-/
import Idealize.ShloMosaic.PureOps.Ideal
import Idealize.ShloMosaic.Lib.ValueIdx

noncomputable section

open scoped BigOperators

namespace Cert.SigmoidAttention

open Idealize.ShloMosaic Idealize.ShloMosaic.ValueIdx

/-- 4 sequences of 4096 rows of 1024 features. -/
abbrev Rows : Shape := ⟨3, ![4, 4096, 1024]⟩
/-- A projection's matrix: input feature by output feature. -/
abbrev Weights : Shape := ⟨2, ![1024, 1024]⟩
/-- A projection's bias: one entry per output feature. -/
abbrev Bias : Shape := ⟨1, ![1024]⟩

/-- An array of rows read by its three coordinates. -/
abbrev Coords : Type := Fin 4 → Fin 4096 → Fin 1024 → EReal

/-- Entry `(b, s, e)` of the projection `X W + β`: row `s` of sequence `b` against column `e` of `W`, plus `β e`. -/
def proj (X : Rows.Idx → EReal) (W : Weights.Idx → EReal) (β : Bias.Idx → EReal) : Coords := fun b s e =>
  (∑ d : Fin 1024, X (ix3 b s d) * W (ix2 d e)) + β (ix1 e)

/-- The score of query row `q` against key row `k`, the scale applied to the finished inner product. -/
def scoreAfter (c : EReal) (Q K : Coords) (b : Fin 4) (q k : Fin 4096) : EReal :=
  (∑ d : Fin 1024, Q b q d * K b k d) * c

/-- The same score with the scale applied to every query entry before the inner product. -/
def scoreBefore (c : EReal) (Q K : Coords) (b : Fin 4) (q k : Fin 4096) : EReal :=
  ∑ d : Fin 1024, (Q b q d * c) * K b k d

/-- The keys summed in one pass. -/
def attendWhole (s : Fin 4 → Fin 4096 → Fin 4096 → EReal) (V : Coords) : Coords := fun b q e =>
  ∑ k : Fin 4096, Ideal.logistic (s b q k) * V b k e

/-- The row of the sequence that entry `k'` of key block `kb` is. -/
def keyAt (kb : Fin 4) (k' : Fin 1024) : Fin 4096 := ⟨kb.val * 1024 + k'.val, by omega⟩

/-- Key block `kb`'s contribution to entry `(b, q, e)` (nothing beyond the fourth block). -/
def attendBlock (s : Fin 4 → Fin 4096 → Fin 4096 → EReal) (V : Coords) (b : Fin 4) (q : Fin 4096) (e : Fin 1024) (kb : ℕ) : EReal :=
  if h : kb < 4 then ∑ k' : Fin 1024, Ideal.logistic (s b q (keyAt ⟨kb, h⟩ k')) * V b (keyAt ⟨kb, h⟩ k') e else 0

/-- The keys summed a block at a time, the four blocks' contributions accumulated in order. -/
def attendBlocks (s : Fin 4 → Fin 4096 → Fin 4096 → EReal) (V : Coords) : Coords := fun b q e =>
  ∑ kb ∈ Finset.range 4, attendBlock s V b q e kb

end Cert.SigmoidAttention

end
-- ==== Proof.AttnGrid.lean ====
/-
  The attention kernel's grid, read as coordinates.

  The grid has 4 × 4 × 4 = 64 points in row-major order, the key block moving fastest: point `t` works on sequence
  `t / 16`, on the query rows of block `t / 4 mod 4`, against the key and value rows of block `t mod 4`. Row `r` of
  block `blk` of a sequence is its row `blk · 1024 + r`.
-/
import proofs.«105858_j72662256714429_2_alg».proof.Proof.Gen.KernelIdeal.Launch
import proofs.«105858_j72662256714429_2_alg».proof.Proof.SigmoidAttention

noncomputable section

namespace Cert.AttnGrid

open Cert.KernelIdeal Cert.KernelIdeal.Gen Idealize.ShloMosaic

theorem lt64 (t : Fin cfg1.N) : t.val < 64 := lt_of_lt_of_eq t.isLt (show cfg1.N = 64 from N_1)

/-- The sequence a grid point works on. -/
def seqOf (t : Fin cfg1.N) : Fin 4 := ⟨t.val / 16, by have := lt64 t; omega⟩
/-- The block of query rows a grid point works on. -/
def queryBlockOf (t : Fin cfg1.N) : Fin 4 := ⟨t.val / 4 % 4, by omega⟩
/-- The block of key and value rows a grid point works on. -/
def keyBlockOf (t : Fin cfg1.N) : Fin 4 := ⟨t.val % 4, by omega⟩

/-- The grid point of a sequence, a query block and a key block. -/
def pointOf (b qb kb : Fin 4) : Fin cfg1.N := ⟨b.val * 16 + qb.val * 4 + kb.val, by rw [show cfg1.N = 64 from N_1]; omega⟩

theorem seqOf_pointOf (b qb kb : Fin 4) : seqOf (pointOf b qb kb) = b := Fin.ext (by show (b.val * 16 + qb.val * 4 + kb.val) / 16 = b.val; omega)
theorem queryBlockOf_pointOf (b qb kb : Fin 4) : queryBlockOf (pointOf b qb kb) = qb := Fin.ext (by show (b.val * 16 + qb.val * 4 + kb.val) / 4 % 4 = qb.val; omega)
theorem keyBlockOf_pointOf (b qb kb : Fin 4) : keyBlockOf (pointOf b qb kb) = kb := Fin.ext (by show (b.val * 16 + qb.val * 4 + kb.val) % 4 = kb.val; omega)

end Cert.AttnGrid

end
-- ==== Proof.AttnCases.lean ====
/-
  The attention kernel's two cases as values, and its block reads.

  The kernel runs on a 4 × 4 × 4 grid, the key block moving fastest. Its body has one conditional: at a point whose key
  block is 0 it first stores the zero block into the result's staging buffer; at every point it then loads the query,
  key and value blocks and the staging buffer's contents, and stores one payload computed from the four. So over the
  four key blocks of one query block the staging buffer holds, in turn, the payload over zero, then the payload over
  what the point before left. 'first_block' and 'later_block' say this of the two cases, for any float values, the
  payloads kept as the generated module names them. 'query_block', 'key_block' and 'value_block' say which entries of
  the query, key and value arrays a point's three input blocks are, at explicit coordinates.
-/
import proofs.«105858_j72662256714429_2_alg».proof.Proof.Gen.KernelIdeal.Frame
import proofs.«105858_j72662256714429_2_alg».proof.Proof.AttnGrid
import Idealize.ShloMosaic.Lib.Pipeline.Value
import Idealize.ShloMosaic.Lib.ValueIdx
import Idealize.ShloMosaic.Lib.Tactic

noncomputable section

namespace Cert.AttnCases

open Cert.KernelIdeal Cert.KernelIdeal.Gen Cert.AttnGrid
open Cert.SigmoidAttention (keyAt)
open Idealize.ShloMosaic Idealize.ShloMosaic.TcCoe Idealize.ShloMosaic.ValueIdx Idealize.SL.Sem

variable {F : FTy → Type} [FloatOps F]

/-- The zero offsets of a whole-block access. -/
theorem hz : (![0, 0, 0] : Fin 3 → Nat) = fun _ => 0 := funext fun a => by fin_cases a <;> rfl

/-- CASE B (a later key block). The body loads the three input blocks and the result's staging buffer, holding xo3, and
    stores the payload: what it leaves is the payload of the three input blocks over xo3, its one covering store. -/
theorem later_block (c : Dev nD) (i : grid1.Coords) (a3 : Memref sig .tc .vmem S1x1024x1024 .bf16) (h3 : a3.IsWhole)
    (a4 : Memref sig .tc .vmem S1x1024x1024 .bf16) (h4 : a4.IsWhole) (a5 : Memref sig .tc .vmem S1x1024x1024 .bf16) (h5 : a5.IsWhole)
    (a6 : Memref sig .tc .vmem S1x1024x1024 .f32) (h6 : a6.IsWhole) (hc : ¬cond1_0 i)
    (x0 x1 x2 : Vec F S1x1024x1024 .bf16) (xo3 : Vec F S1x1024x1024 .f32) :
    out1_B_3 c i a3 h3 a4 h4 a5 h5 a6 h6 hc x0 x1 x2 xo3 = k1_pay2 x0 x1 x2 xo3 := by
  unfold out1_B_3
  rw [View.read_writes_eq_canon _ _ _ (cover1_B_3 c i a3 h3 a4 h4 a5 h5 a6 h6 hc x0 x1 x2 xo3)]
  unfold kernelRun1_B
  dsimp only
  rw [View.canon_unit_zero hz]
  simp only [View.readAt_eq_ld, h3.read_unread, h4.read_unread, h5.read_unread, h6.read_unread, View.ld_unit_zero (S := S1x1024x1024) hz]

/-- CASE A (the first key block of a query block: grid points with key block 0). The body first stores the zero block
    into the result's staging buffer, then loads the three input blocks and that buffer, and stores the payload: what it
    leaves is the payload of the three input blocks over the zero block. The read-back of the first store is the
    run's own intermediate, a covered load, opened in place. -/
theorem first_block (c : Dev nD) (i : grid1.Coords) (a3 : Memref sig .tc .vmem S1x1024x1024 .bf16) (h3 : a3.IsWhole)
    (a4 : Memref sig .tc .vmem S1x1024x1024 .bf16) (h4 : a4.IsWhole) (a5 : Memref sig .tc .vmem S1x1024x1024 .bf16) (h5 : a5.IsWhole)
    (a6 : Memref sig .tc .vmem S1x1024x1024 .f32) (h6 : a6.IsWhole) (hc : cond1_0 i)
    (x0 x1 x2 : Vec F S1x1024x1024 .bf16) :
    out1_A_3 c i a3 h3 a4 h4 a5 h5 a6 h6 hc x0 x1 x2 = k1_pay2 x0 x1 x2 (k1_pay1 (F := F)) := by
  unfold out1_A_3
  rw [View.read_writes_eq_canon _ _ _ (cover1_A_3 c i a3 h3 a4 h4 a5 h5 a6 h6 hc x0 x1 x2)]
  unfold kernelRun1_A
  dsimp only
  sl_unfold_words
  rw [View.canon_cons_unit_zero (S := S1x1024x1024) hz, View.readCov_unit_zero (S := S1x1024x1024) _ hz]
  simp only [View.readAt_eq_ld, h3.read_unread, h4.read_unread, h5.read_unread, View.ld_unit_zero (S := S1x1024x1024) hz]

section Blocks

variable (V : (c : Dev nD) → (b : Ref sig .tc) → Buf (Elt F) ((c : Thread nD τ).loc b))

/-- The block index of window 0 (the queries) at a grid point: (sequence, query block, 0). -/
theorem index_0 : ∀ t : Fin cfg1.N, win1_0.index t 0 = t.val / 16 ∧ win1_0.index t 1 = t.val / 4 % 4 ∧ win1_0.index t 2 = 0 :=
  (by decide +kernel : ∀ t : Fin grid1.N, win1_0.index t 0 = t.val / 16 ∧ win1_0.index t 1 = t.val / 4 % 4 ∧ win1_0.index t 2 = 0)
/-- The block index of window 1 (the keys) at a grid point: (sequence, key block, 0). -/
theorem index_1 : ∀ t : Fin cfg1.N, win1_1.index t 0 = t.val / 16 ∧ win1_1.index t 1 = t.val % 4 ∧ win1_1.index t 2 = 0 :=
  (by decide +kernel : ∀ t : Fin grid1.N, win1_1.index t 0 = t.val / 16 ∧ win1_1.index t 1 = t.val % 4 ∧ win1_1.index t 2 = 0)
/-- The block index of window 2 (the values) at a grid point: (sequence, key block, 0). -/
theorem index_2 : ∀ t : Fin cfg1.N, win1_2.index t 0 = t.val / 16 ∧ win1_2.index t 1 = t.val % 4 ∧ win1_2.index t 2 = 0 :=
  (by decide +kernel : ∀ t : Fin grid1.N, win1_2.index t 0 = t.val / 16 ∧ win1_2.index t 1 = t.val % 4 ∧ win1_2.index t 2 = 0)

/-- Window 0's block at a grid point, read at row r and feature d, is the query array at the point's sequence, at row
    r of the point's query block, at feature d: a block's coordinate on an axis is the block index times the block's
    size plus the coordinate inside the block. -/
theorem query_block (c : Dev nD) (t : Fin cfg1.N) (r d : Fin 1024) :
    (iblk1 V c 0 t : Vec F S1x1024x1024 .bf16) (ix3 (0 : Fin 1) r d) = V c main_v6_0 (ix3 (seqOf t) (keyAt (queryBlockOf t) r) d) := by
  have hi := index_0 t
  unfold iblk1
  rw [View.read_apply]
  show V c _ _ = V c _ _
  refine congrArg _ (funext fun a => Fin.ext ?_)
  match a with
  | ⟨0, _⟩ => show win1_0.index t 0 * 1 + 1 * 0 = t.val / 16; rw [hi.1]; omega
  | ⟨1, _⟩ => show win1_0.index t 1 * 1024 + 1 * r.val = t.val / 4 % 4 * 1024 + r.val; rw [hi.2.1]; omega
  | ⟨2, _⟩ => show win1_0.index t 2 * 1024 + 1 * d.val = d.val; rw [hi.2.2]; omega

/-- Window 1's block at a grid point, read at row k' and feature d, is the key array at the point's sequence, at row k'
    of the point's key block, at feature d. -/
theorem key_block (c : Dev nD) (t : Fin cfg1.N) (k' d : Fin 1024) :
    (iblk1 V c 1 t : Vec F S1x1024x1024 .bf16) (ix3 (0 : Fin 1) k' d) = V c main_v6_1 (ix3 (seqOf t) (keyAt (keyBlockOf t) k') d) := by
  have hi := index_1 t
  unfold iblk1
  rw [View.read_apply]
  show V c _ _ = V c _ _
  refine congrArg _ (funext fun a => Fin.ext ?_)
  match a with
  | ⟨0, _⟩ => show win1_1.index t 0 * 1 + 1 * 0 = t.val / 16; rw [hi.1]; omega
  | ⟨1, _⟩ => show win1_1.index t 1 * 1024 + 1 * k'.val = t.val % 4 * 1024 + k'.val; rw [hi.2.1]; omega
  | ⟨2, _⟩ => show win1_1.index t 2 * 1024 + 1 * d.val = d.val; rw [hi.2.2]; omega

/-- Window 2's block at a grid point, read at row k' and feature e, is the value array at the point's sequence, at row
    k' of the point's key block, at feature e. -/
theorem value_block (c : Dev nD) (t : Fin cfg1.N) (k' e : Fin 1024) :
    (iblk1 V c 2 t : Vec F S1x1024x1024 .bf16) (ix3 (0 : Fin 1) k' e) = V c main_v6_2 (ix3 (seqOf t) (keyAt (keyBlockOf t) k') e) := by
  have hi := index_2 t
  unfold iblk1
  rw [View.read_apply]
  show V c _ _ = V c _ _
  refine congrArg _ (funext fun a => Fin.ext ?_)
  match a with
  | ⟨0, _⟩ => show win1_2.index t 0 * 1 + 1 * 0 = t.val / 16; rw [hi.1]; omega
  | ⟨1, _⟩ => show win1_2.index t 1 * 1024 + 1 * k'.val = t.val % 4 * 1024 + k'.val; rw [hi.2.1]; omega
  | ⟨2, _⟩ => show win1_2.index t 2 * 1024 + 1 * e.val = e.val; rw [hi.2.2]; omega

end Blocks

end Cert.AttnCases

end
-- ==== Proof.LibContract.lean ====
/-
  A contraction over ONE axis, read as a sum over that axis's coordinate.

  A matrix product on the TensorCore (into a zero accumulator) and the host's `dot_general` are, at the ideal values, the
  sum over the contraction index of the operands' products. When one axis is contracted the contraction index is a single
  coordinate `i < n`, and the sum is the `Fin n`-indexed sum of whatever the two operands are at the operand indices
  that coordinate selects.
-/
import Idealize.ShloMosaic.PureOps.Ideal.Laws
import Idealize.ShloMosaic.Lib.ValueIdx

namespace Idealize.ShloMosaic.ContractSingle

open Idealize.ShloMosaic.ValueIdx

/-- The sum over a one-axis contraction index, with the operands' factors named at each coordinate `i` of the contracted
    axis (`hl`, `hr`), is the sum of the named factors' products over `i`. -/
theorem sum_single {sl sr so : Shape} (d : DotDims sl sr so) (n : Nat) (hrank : d.contr.rank = 1)
    (hsize : d.contr.size ⟨0, by omega⟩ = n) (l : sl.Idx → EReal) (r : sr.Idx → EReal) (j : so.Idx) (L R : Fin n → EReal)
    (hl : ∀ i : Fin n, l (d.lhsIdx j ((contrEquiv1 d n hrank hsize).symm i)) = L i)
    (hr : ∀ i : Fin n, r (d.rhsIdx j ((contrEquiv1 d n hrank hsize).symm i)) = R i) :
    ∑ k : d.contr.Idx, l (d.lhsIdx j k) * r (d.rhsIdx j k) = ∑ i : Fin n, L i * R i := by
  rw [← Equiv.sum_comp (contrEquiv1 d n hrank hsize).symm]
  exact Finset.sum_congr rfl fun i _ => by rw [hl i, hr i]

/-- A TensorCore matrix product into the zero accumulator, one axis contracted, read at an output index. -/
theorem matmul_zero_single {sl sr so : Shape} {φ₁ φ₂ : FTy} (d : DotDims sl sr so) (prec : Option ContractPrecision) (n : Nat)
    (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.matmul d prec lhs rhs (constant so .f32 0x00000000#32) j = ∑ i : Fin n, L i * R i :=
  (Ideal.matmul_constant_zero_apply d prec lhs rhs j).trans (sum_single d n hrank hsize lhs rhs j L R hl hr)

/-- The host's `dot_general`, one axis contracted, read at an output index. -/
theorem dotGeneral_single {sl sr so : Shape} {φ₁ φ₂ : FTy} (d : DotDims sl sr so) (prec : Option ContractPrecision)
    (sched : HostSchedule) (n : Nat) (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.dotGeneral d prec sched lhs rhs j = ∑ i : Fin n, L i * R i :=
  (Ideal.dotGeneral_apply d prec sched lhs rhs j).trans (sum_single d n hrank hsize lhs rhs j L R hl hr)

end Idealize.ShloMosaic.ContractSingle
-- ==== Proof.KernelContract.lean ====
/-
  The kernel's three matrix products, each read at one entry of its result.

  Every product here accumulates into a zero block and contracts one axis of 1024 features or 1024 key rows, so an
  entry of the result is the sum over that axis of the products of the two operands' entries: a row of the left operand
  against a column of the right one (the projections, and weights against values), or a row of the left operand
  against a row of the right one (queries against keys).
-/
import proofs.«105858_j72662256714429_2_alg».proof.Proof.Gen.KernelIdeal.Skeleton
import proofs.«105858_j72662256714429_2_alg».proof.Proof.LibContract
import Idealize.ShloMosaic.PureOps.Ideal.Laws
import Idealize.ShloMosaic.Lib.ValueIdx

noncomputable section

open scoped BigOperators

namespace Cert.KernelContract

open Cert.KernelIdeal Cert.KernelIdeal.Gen Idealize.ShloMosaic Idealize.ShloMosaic.ValueIdx

/-! ### A block of 512 rows against the 1024 × 1024 weights: entry `(p, c)` is row `p` of the block against column `c` of the weights. -/

theorem proj_lhs_kept (j : S512x1024.Idx) (q : dot_S512x1024_S1024x1024_S512x1024_1_0_0_1_n_n.contr.Idx) :
    (dot_S512x1024_S1024x1024_S512x1024_1_0_0_1_n_n.lhsIdx j q 0).val = (j 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem proj_lhs_contracted (j : S512x1024.Idx) (q : dot_S512x1024_S1024x1024_S512x1024_1_0_0_1_n_n.contr.Idx) :
    (dot_S512x1024_S1024x1024_S512x1024_1_0_0_1_n_n.lhsIdx j q 1).val = (q ⟨0, by decide⟩).val :=
  dot_S512x1024_S1024x1024_S512x1024_1_0_0_1_n_n.lhsIdx_val_of_single rfl j q
theorem proj_rhs_kept (j : S512x1024.Idx) (q : dot_S512x1024_S1024x1024_S512x1024_1_0_0_1_n_n.contr.Idx) :
    (dot_S512x1024_S1024x1024_S512x1024_1_0_0_1_n_n.rhsIdx j q 1).val = (j 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl
theorem proj_rhs_contracted (j : S512x1024.Idx) (q : dot_S512x1024_S1024x1024_S512x1024_1_0_0_1_n_n.contr.Idx) :
    (dot_S512x1024_S1024x1024_S512x1024_1_0_0_1_n_n.rhsIdx j q 0).val = (q ⟨0, by decide⟩).val :=
  dot_S512x1024_S1024x1024_S512x1024_1_0_0_1_n_n.rhsIdx_val_of_single rfl j q

/-- A block of 512 rows against the 1024 × 1024 weights: entry `(p, c)` is row `p` of the block against column `c` of the weights. -/
theorem rows_by_columns_512 (x : FVec Ideal S512x1024 .bf16) (w : FVec Ideal S1024x1024 .bf16) (p : Fin 512) (c : Fin 1024) :
    matmul dot_S512x1024_S1024x1024_S512x1024_1_0_0_1_n_n none x w (constant S512x1024 .f32 0x00000000#32) (ix2 p c)
      = ∑ i : Fin 1024, x (ix2 p i) * w (ix2 i c) := by
  refine ContractSingle.matmul_zero_single dot_S512x1024_S1024x1024_S512x1024_1_0_0_1_n_n none 1024 rfl rfl x w (ix2 p c) (fun i => x (ix2 p i)) (fun i => w (ix2 i c))
    (fun i => congrArg x (funext fun a => Fin.ext ?_)) (fun i => congrArg w (funext fun a => Fin.ext ?_))
  · have hk := contrEquiv1_symm_val dot_S512x1024_S1024x1024_S512x1024_1_0_0_1_n_n 1024 rfl rfl i
    match a with
    | ⟨0, _⟩ => exact proj_lhs_kept _ _
    | ⟨1, _⟩ => exact (proj_lhs_contracted _ _).trans hk
  · have hk := contrEquiv1_symm_val dot_S512x1024_S1024x1024_S512x1024_1_0_0_1_n_n 1024 rfl rfl i
    match a with
    | ⟨0, _⟩ => exact (proj_rhs_contracted _ _).trans hk
    | ⟨1, _⟩ => exact proj_rhs_kept _ _

/-! ### Queries against keys: entry `(p, c)` is row `p` of the left operand against ROW `c` of the right operand, both over the 1024 features. -/

theorem score_lhs_kept (j : S1024x1024.Idx) (q : dot_S1024x1024_S1024x1024_S1024x1024_1_1_0_0_n_n.contr.Idx) :
    (dot_S1024x1024_S1024x1024_S1024x1024_1_1_0_0_n_n.lhsIdx j q 0).val = (j 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem score_lhs_contracted (j : S1024x1024.Idx) (q : dot_S1024x1024_S1024x1024_S1024x1024_1_1_0_0_n_n.contr.Idx) :
    (dot_S1024x1024_S1024x1024_S1024x1024_1_1_0_0_n_n.lhsIdx j q 1).val = (q ⟨0, by decide⟩).val :=
  dot_S1024x1024_S1024x1024_S1024x1024_1_1_0_0_n_n.lhsIdx_val_of_single rfl j q
theorem score_rhs_kept (j : S1024x1024.Idx) (q : dot_S1024x1024_S1024x1024_S1024x1024_1_1_0_0_n_n.contr.Idx) :
    (dot_S1024x1024_S1024x1024_S1024x1024_1_1_0_0_n_n.rhsIdx j q 0).val = (j 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem score_rhs_contracted (j : S1024x1024.Idx) (q : dot_S1024x1024_S1024x1024_S1024x1024_1_1_0_0_n_n.contr.Idx) :
    (dot_S1024x1024_S1024x1024_S1024x1024_1_1_0_0_n_n.rhsIdx j q 1).val = (q ⟨0, by decide⟩).val :=
  dot_S1024x1024_S1024x1024_S1024x1024_1_1_0_0_n_n.rhsIdx_val_of_single rfl j q

/-- Queries against keys: entry `(p, c)` is row `p` of the left operand against ROW `c` of the right operand, both over the 1024 features. -/
theorem rows_by_rows (x : FVec Ideal S1024x1024 .bf16) (w : FVec Ideal S1024x1024 .bf16) (p : Fin 1024) (c : Fin 1024) :
    matmul dot_S1024x1024_S1024x1024_S1024x1024_1_1_0_0_n_n none x w (constant S1024x1024 .f32 0x00000000#32) (ix2 p c)
      = ∑ i : Fin 1024, x (ix2 p i) * w (ix2 c i) := by
  refine ContractSingle.matmul_zero_single dot_S1024x1024_S1024x1024_S1024x1024_1_1_0_0_n_n none 1024 rfl rfl x w (ix2 p c) (fun i => x (ix2 p i)) (fun i => w (ix2 c i))
    (fun i => congrArg x (funext fun a => Fin.ext ?_)) (fun i => congrArg w (funext fun a => Fin.ext ?_))
  · have hk := contrEquiv1_symm_val dot_S1024x1024_S1024x1024_S1024x1024_1_1_0_0_n_n 1024 rfl rfl i
    match a with
    | ⟨0, _⟩ => exact score_lhs_kept _ _
    | ⟨1, _⟩ => exact (score_lhs_contracted _ _).trans hk
  · have hk := contrEquiv1_symm_val dot_S1024x1024_S1024x1024_S1024x1024_1_1_0_0_n_n 1024 rfl rfl i
    match a with
    | ⟨0, _⟩ => exact score_rhs_kept _ _
    | ⟨1, _⟩ => exact (score_rhs_contracted _ _).trans hk

/-! ### Weights against values: entry `(p, c)` is row `p` of the weights against column `c` of the values, over the block's 1024 key rows. -/

theorem mix_lhs_kept (j : S1024x1024.Idx) (q : dot_S1024x1024_S1024x1024_S1024x1024_1_0_0_1_n_n.contr.Idx) :
    (dot_S1024x1024_S1024x1024_S1024x1024_1_0_0_1_n_n.lhsIdx j q 0).val = (j 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem mix_lhs_contracted (j : S1024x1024.Idx) (q : dot_S1024x1024_S1024x1024_S1024x1024_1_0_0_1_n_n.contr.Idx) :
    (dot_S1024x1024_S1024x1024_S1024x1024_1_0_0_1_n_n.lhsIdx j q 1).val = (q ⟨0, by decide⟩).val :=
  dot_S1024x1024_S1024x1024_S1024x1024_1_0_0_1_n_n.lhsIdx_val_of_single rfl j q
theorem mix_rhs_kept (j : S1024x1024.Idx) (q : dot_S1024x1024_S1024x1024_S1024x1024_1_0_0_1_n_n.contr.Idx) :
    (dot_S1024x1024_S1024x1024_S1024x1024_1_0_0_1_n_n.rhsIdx j q 1).val = (j 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl
theorem mix_rhs_contracted (j : S1024x1024.Idx) (q : dot_S1024x1024_S1024x1024_S1024x1024_1_0_0_1_n_n.contr.Idx) :
    (dot_S1024x1024_S1024x1024_S1024x1024_1_0_0_1_n_n.rhsIdx j q 0).val = (q ⟨0, by decide⟩).val :=
  dot_S1024x1024_S1024x1024_S1024x1024_1_0_0_1_n_n.rhsIdx_val_of_single rfl j q

/-- Weights against values: entry `(p, c)` is row `p` of the weights against column `c` of the values, over the block's 1024 key rows. -/
theorem rows_by_columns (x : FVec Ideal S1024x1024 .bf16) (w : FVec Ideal S1024x1024 .bf16) (p : Fin 1024) (c : Fin 1024) :
    matmul dot_S1024x1024_S1024x1024_S1024x1024_1_0_0_1_n_n none x w (constant S1024x1024 .f32 0x00000000#32) (ix2 p c)
      = ∑ i : Fin 1024, x (ix2 p i) * w (ix2 i c) := by
  refine ContractSingle.matmul_zero_single dot_S1024x1024_S1024x1024_S1024x1024_1_0_0_1_n_n none 1024 rfl rfl x w (ix2 p c) (fun i => x (ix2 p i)) (fun i => w (ix2 i c))
    (fun i => congrArg x (funext fun a => Fin.ext ?_)) (fun i => congrArg w (funext fun a => Fin.ext ?_))
  · have hk := contrEquiv1_symm_val dot_S1024x1024_S1024x1024_S1024x1024_1_0_0_1_n_n 1024 rfl rfl i
    match a with
    | ⟨0, _⟩ => exact mix_lhs_kept _ _
    | ⟨1, _⟩ => exact (mix_lhs_contracted _ _).trans hk
  · have hk := contrEquiv1_symm_val dot_S1024x1024_S1024x1024_S1024x1024_1_0_0_1_n_n 1024 rfl rfl i
    match a with
    | ⟨0, _⟩ => exact (mix_rhs_contracted _ _).trans hk
    | ⟨1, _⟩ => exact mix_rhs_kept _ _

end Cert.KernelContract

end
-- ==== Proof.AttnPayload.lean ====
/-
  What the attention kernel stores, entry by entry, at the ideal values.

  At one grid point the body holds a block of 1024 query rows, a block of 1024 key rows, the same rows' values, and the
  running result for the query rows. It leaves, at entry `(r, e)`, the running result plus the sum over the block's
  1024 key rows of the logistic function of (query row `r` against the key row) times the value's entry `e`. At the
  first key block the running result it starts from is the zero block.
-/
import proofs.«105858_j72662256714429_2_alg».proof.Proof.KernelContract
import Idealize.ShloMosaic.Lib.ValueLayout
import Idealize.ShloMosaic.Lib.Pipeline.Value

noncomputable section

open scoped BigOperators

namespace Cert.AttnPayload

open Cert.KernelIdeal Cert.KernelIdeal.Gen Idealize.ShloMosaic Idealize.ShloMosaic.ValueIdx

/-- One key block's contribution to entry `(r, e)`. -/
def contribution (q k v : Vec Ideal S1x1024x1024 .bf16) (r e : Fin 1024) : EReal :=
  ∑ k' : Fin 1024, Ideal.logistic (∑ d : Fin 1024, q (ix3 (0 : Fin 1) r d) * k (ix3 (0 : Fin 1) k' d)) * v (ix3 (0 : Fin 1) k' e)

/-- The block stored at the first key block is zero everywhere. -/
theorem zero_apply (u : Fin 1) (r e : Fin 1024) : k1_pay1 (F := Ideal) (ix3 u r e) = 0 := by
  unfold k1_pay1
  rw [shapeCast_ab_1ab_apply, broadcast_apply]
  exact Ideal.ofBits_zero_f32

/-- The stored block: the running result plus the key block's contribution. -/
theorem step_apply (q k v : Vec Ideal S1x1024x1024 .bf16) (acc : Vec Ideal S1x1024x1024 .f32) (u : Fin 1) (r e : Fin 1024) :
    k1_pay2 (F := Ideal) q k v acc (ix3 u r e) = acc (ix3 (0 : Fin 1) r e) + contribution q k v r e := by
  unfold k1_pay2 contribution
  rw [shapeCast_ab_1ab_apply, addf_apply, shapeCast_1ab_ab_apply, KernelContract.rows_by_columns]
  refine congrArg (_ + ·) (Finset.sum_congr rfl fun k' _ => ?_)
  rw [truncf_apply, shapeCast_1ab_ab_apply]
  refine congrArg (· * _) ?_
  show Ideal.logistic (matmul (F := Ideal) dot_S1024x1024_S1024x1024_S1024x1024_1_1_0_0_n_n none _ _ (constant S1024x1024 .f32 0x00000000#32) (ix2 r k')) = _
  rw [KernelContract.rows_by_rows]
  refine congrArg Ideal.logistic (Finset.sum_congr rfl fun d _ => ?_)
  rw [shapeCast_1ab_ab_apply, shapeCast_1ab_ab_apply]

end Cert.AttnPayload

end
-- ==== Proof.AttnAccum.lean ====
/-
  The attention kernel's result array, as one function of the arrays it finds.

  The kernel works through a 4 × 4 × 4 grid, the key block moving fastest. For a fixed sequence and block of query
  rows its result block stays in place while the four key blocks pass: the first key block's point starts it from the
  zero block, and every point adds its key block's contribution. So after the point of key block `kb` the block holds,
  at entry `(r, e)`, the sum of the contributions of key blocks `0 … kb` (`partial_sums`, by induction on the point).
  The block is written back after the fourth key block only, when it holds all four contributions; the blocks written
  back tile the result array, which therefore ends as the sum over key blocks, entry by entry (`result_array`).
-/
import proofs.«105858_j72662256714429_2_alg».proof.Proof.Gen.KernelIdeal.Frame
import proofs.«105858_j72662256714429_2_alg».proof.Proof.AttnCases
import proofs.«105858_j72662256714429_2_alg».proof.Proof.AttnPayload
import proofs.«105858_j72662256714429_2_alg».proof.Proof.AttnGrid
import proofs.«105858_j72662256714429_2_alg».proof.Proof.SigmoidAttention
import Idealize.ShloMosaic.Lib.Pipeline.Value
import Idealize.ShloMosaic.Lib.ValueIdx

noncomputable section

open scoped BigOperators

namespace Cert.AttnAccum

open Cert.KernelIdeal Cert.KernelIdeal.Gen Cert.AttnGrid Cert.SigmoidAttention
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The three arrays the kernel reads, by coordinates: the stored queries, keys and values. -/
def queries (c : Dev nD) : Coords := fun b s d => V c main_v6_0 (ix3 b s d)
def keys (c : Dev nD) : Coords := fun b s d => V c main_v6_1 (ix3 b s d)
def values (c : Dev nD) : Coords := fun b s d => V c main_v6_2 (ix3 b s d)

/-- The score of a query row against a key row: their inner product over the 1024 features. -/
def score (c : Dev nD) (b : Fin 4) (q k : Fin 4096) : EReal := ∑ d : Fin 1024, queries V c b q d * keys V c b k d

/-- The result array: every entry the sum of its four key blocks' contributions. -/
def result (c : Dev nD) : S4x4096x1024.Idx → EReal := fun j => attendBlocks (score V c) (values V c) (j 0) (j 1) (j 2)

/-- What one point adds at entry `(r, e)` is its key block's contribution to the entry of the point's sequence and
    query row. -/
theorem contribution_eq (c : Dev nD) (t : Fin cfg1.N) (r e : Fin 1024) :
    AttnPayload.contribution (iblk1 V c 0 t) (iblk1 V c 1 t) (iblk1 V c 2 t) r e
      = attendBlock (score V c) (values V c) (seqOf t) (keyAt (queryBlockOf t) r) e (t.val % 4) := by
  unfold AttnPayload.contribution attendBlock
  rw [dif_pos (show t.val % 4 < 4 by omega)]
  refine Finset.sum_congr rfl fun k' _ => ?_
  rw [AttnCases.value_block V c t k' e]
  refine congrArg (Ideal.logistic · * _) (Finset.sum_congr rfl fun d _ => ?_)
  rw [AttnCases.query_block V c t r d, AttnCases.key_block V c t k' d]
  rfl

/-- After the point of key block `kb` the carried block holds the contributions of key blocks `0 … kb`. -/
theorem partial_sums (c : Dev nD) : ∀ (n : ℕ) (h : n < cfg1.N) (r e : Fin 1024),
    outsAt1 V c n h (ix3 (0 : Fin 1) r e)
      = ∑ j ∈ Finset.range (n % 4 + 1), attendBlock (score V c) (values V c) (seqOf ⟨n, h⟩) (keyAt (queryBlockOf ⟨n, h⟩) r) e j
  | n, h, r, e => by
    by_cases h0 : n % 4 = 0
    · rw [outsAt1_A V c ⟨n, h⟩ h0, AttnCases.first_block, AttnPayload.step_apply, AttnPayload.zero_apply, zero_add,
        contribution_eq V c ⟨n, h⟩ r e]
      show attendBlock _ _ _ _ _ (n % 4) = _
      rw [h0, Finset.sum_range_one]
    · have hn : n - 1 < cfg1.N := Nat.lt_of_le_of_lt (Nat.sub_le _ _) h
      have hN : n < 64 := lt64 ⟨n, h⟩
      rw [outsAt1_B V c ⟨n, h⟩ h0, AttnCases.later_block, AttnPayload.step_apply, contribution_eq V c ⟨n, h⟩ r e]
      show outsAt1 V c (n - 1) hn (ix3 (0 : Fin 1) r e) + attendBlock _ _ _ _ _ (n % 4) = _
      rw [partial_sums c (n - 1) hn r e]
      have hs : seqOf ⟨n - 1, hn⟩ = seqOf ⟨n, h⟩ := Fin.ext (by show (n - 1) / 16 = n / 16; omega)
      have hq : queryBlockOf ⟨n - 1, hn⟩ = queryBlockOf ⟨n, h⟩ := Fin.ext (by show (n - 1) / 4 % 4 = n / 4 % 4; omega)
      rw [hs, hq, show (n - 1) % 4 + 1 = n % 4 by omega, Finset.sum_range_succ]
  termination_by n => n
  decreasing_by omega

/-- The result window's block index at a point: its sequence, its query block, the whole feature axis. -/
theorem result_index : ∀ t : Fin cfg1.N, win1_3.index t 0 = t.val / 16 ∧ win1_3.index t 1 = t.val / 4 % 4 ∧ win1_3.index t 2 = 0 :=
  (by decide +kernel : ∀ t : Fin grid1.N, win1_3.index t 0 = t.val / 16 ∧ win1_3.index t 1 = t.val / 4 % 4 ∧ win1_3.index t 2 = 0)

/-- Where entry `y` of the result block of point `t` sits in the result array. -/
theorem result_emb (t : Fin cfg1.N) (y : S1x1024x1024.Idx) :
    ((cfg1.win 3).blk t).view.emb y = ix3 (seqOf t) (keyAt (queryBlockOf t) (y 1)) (y 2) := by
  obtain ⟨e0, e1, e2⟩ := result_index t
  have hy0 : (y 0).val < 1 := (y 0).isLt
  funext a
  apply Fin.ext
  match a with
  | ⟨0, _⟩ => show win1_3.index t 0 * 1 + 1 * (y 0).val = t.val / 16; omega
  | ⟨1, _⟩ => show win1_3.index t 1 * 1024 + 1 * (y 1).val = t.val / 4 % 4 * 1024 + (y 1).val; omega
  | ⟨2, _⟩ => show win1_3.index t 2 * 1024 + 1 * (y 2).val = (y 2).val; omega

/-- At a point of the last key block the carried block holds, at every entry, the result array's entry there. -/
theorem block_entry (c : Dev nD) (t : Fin cfg1.N) (h3 : t.val % 4 = 3) (y : S1x1024x1024.Idx) :
    outsAt1 V c t.val t.isLt y = result V c (ix3 (seqOf t) (keyAt (queryBlockOf t) (y 1)) (y 2)) := by
  obtain ⟨u, r, e, rfl⟩ : ∃ (u : Fin 1) (r e : Fin 1024), y = ix3 u r e := ⟨y 0, y 1, y 2, eq_ix3 y⟩
  obtain rfl : u = 0 := Fin.ext (by have := u.isLt; omega)
  rw [partial_sums V c t.val t.isLt r e, h3]
  rfl

/-- What a point that writes back writes: its block of the result array. -/
theorem flushed_eq (c : Dev nD) (t : Fin cfg1.N) (hf : (cfg1.win 3).flush t = true) :
    (dat1 V c).flushed 3 t = ((cfg1.win 3).blk t).view.read (Elt Ideal) (result V c) := by
  have h3 : t.val % 4 = 3 := (flush1_3 t).mp hf
  show (cfg1.win 3).cut (grid1.coords t) ((dat1 V c).after 3 t) = _
  rw [after1_3]
  funext y
  show outsAt1 V c t.val t.isLt y = result V c (((cfg1.win 3).blk t).view.emb y)
  rw [result_emb t y]
  exact block_entry V c t h3 y

/-- Every entry of the result array is in the block some point writes back: the point of its sequence, its row's
    query block and the last key block. -/
theorem covered (i : S4x4096x1024.Idx) : ∃ t : Fin cfg1.N, (cfg1.win 3).flush t = true ∧ i ∈ ((cfg1.win 3).blk t).view.set := by
  have hi0 : (i 0).val < 4 := (i 0).isLt
  have hi1 : (i 1).val < 4096 := (i 1).isLt
  have hi2 : (i 2).val < 1024 := (i 2).isLt
  let t : Fin cfg1.N := pointOf ⟨(i 0).val, hi0⟩ ⟨(i 1).val / 1024, by omega⟩ ⟨3, by omega⟩
  have ht : t.val = (i 0).val * 16 + (i 1).val / 1024 * 4 + 3 := rfl
  obtain ⟨e0, e1, e2⟩ := result_index t
  refine ⟨t, (flush1_3 t).mpr (by omega), ?_⟩
  show i ∈ ((View.whole main_v7).slice (win1_3.rect t)).set
  rw [View.set_slice_whole, Rect.mem_set_unit]
  intro a
  match a with
  | ⟨0, _⟩ => show win1_3.index t 0 * 1 ≤ (i 0).val ∧ (i 0).val < win1_3.index t 0 * 1 + 1; omega
  | ⟨1, _⟩ => show win1_3.index t 1 * 1024 ≤ (i 1).val ∧ (i 1).val < win1_3.index t 1 * 1024 + 1024; omega
  | ⟨2, _⟩ => show win1_3.index t 2 * 1024 ≤ (i 2).val ∧ (i 2).val < win1_3.index t 2 * 1024 + 1024; omega

/-- The result array after the region: the sum over key blocks, entry by entry. -/
theorem result_array (c : Dev nD) : (dat1 V c).arrAt 3 cfg1.N = result V c :=
  (dat1 V c).arrAt_eq_of_cover 3 (result V c) (flushed_eq V c) (covered)

end Cert.AttnAccum

end
-- ==== Proof.ProjPayload.lean ====
/-
  What the projection kernel stores, entry by entry, at the ideal values.

  At one grid point the body holds a block of 512 rows of the input, the three weight matrices and the three biases
  (each a single row of 1024 entries). Entry `(r, e)` of each stored block is row `r` of the input block against
  column `e` of that projection's weights, plus the bias's entry `e`; the query block's entries are further
  multiplied by the scale. A change of float format is the identity here.
-/
import proofs.«105858_j72662256714429_2_alg».proof.Proof.KernelContract
import Idealize.ShloMosaic.Lib.ValueLayout
import Idealize.ShloMosaic.Lib.Pipeline.Value

noncomputable section

open scoped BigOperators

namespace Cert.ProjPayload

open Cert.KernelIdeal Cert.KernelIdeal.Gen Idealize.ShloMosaic Idealize.ShloMosaic.ValueIdx

/-- Row `r` of the input block against column `e` of the weights, plus the bias. -/
def entry (x : Vec Ideal S1x512x1024 .f32) (w : Vec Ideal S1024x1024 .bf16) (β : Vec Ideal S1x1024 .f32) (r : Fin 512) (e : Fin 1024) : EReal :=
  (∑ d : Fin 1024, x (ix3 (0 : Fin 1) r d) * w (ix2 d e)) + β (ix2 (0 : Fin 1) e)

/-- The value projection before its change of format. -/
theorem pay4_apply (x : Vec Ideal S1x512x1024 .f32) (w : Vec Ideal S1024x1024 .bf16) (β : Vec Ideal S1x1024 .f32) (r : Fin 512) (e : Fin 1024) :
    k0_pay4 (F := Ideal) x w β (ix2 r e) = entry x w β r e := by
  unfold k0_pay4 k0_pay3 entry
  rw [addf_apply, KernelContract.rows_by_columns_512, broadcastTo_1b_ab_apply, shapeCast_self, shapeCast_self]
  refine congrArg (· + _) (Finset.sum_congr rfl fun d _ => ?_)
  rw [truncf_apply, shapeCast_1ab_ab_apply]

/-- The key projection before its last reshape. -/
theorem pay6_apply (x : Vec Ideal S1x512x1024 .f32) (w : Vec Ideal S1024x1024 .bf16) (β : Vec Ideal S1x1024 .f32) (r : Fin 512) (e : Fin 1024) :
    k0_pay6 (F := Ideal) x w β (ix2 r e) = entry x w β r e := by
  unfold k0_pay6 k0_pay3 entry
  rw [truncf_apply, addf_apply, KernelContract.rows_by_columns_512, broadcastTo_1b_ab_apply, shapeCast_self, shapeCast_self]
  refine congrArg (· + _) (Finset.sum_congr rfl fun d _ => ?_)
  rw [truncf_apply, shapeCast_1ab_ab_apply]

/-- The stored key block. -/
theorem keys_apply (x : Vec Ideal S1x512x1024 .f32) (w : Vec Ideal S1024x1024 .bf16) (β : Vec Ideal S1x1024 .f32) (u : Fin 1) (r : Fin 512) (e : Fin 1024) :
    k0_pay1 (F := Ideal) (k0_pay6 x w β) (ix3 u r e) = entry x w β r e := by
  unfold k0_pay1
  rw [shapeCast_ab_1ab_apply, pay6_apply]

/-- The stored value block. -/
theorem values_apply (x : Vec Ideal S1x512x1024 .f32) (w : Vec Ideal S1024x1024 .bf16) (β : Vec Ideal S1x1024 .f32) (u : Fin 1) (r : Fin 512) (e : Fin 1024) :
    k0_pay2 (F := Ideal) (k0_pay4 x w β) (ix3 u r e) = entry x w β r e := by
  unfold k0_pay2
  rw [shapeCast_ab_1ab_apply, truncf_apply, pay4_apply]

/-- The stored query block: the projection times the scale. -/
theorem queries_apply (x : Vec Ideal S1x512x1024 .f32) (w : Vec Ideal S1024x1024 .bf16) (β : Vec Ideal S1x1024 .f32) (u : Fin 1) (r : Fin 512) (e : Fin 1024) :
    k0_pay5 (F := Ideal) x w β (ix3 u r e) = entry x w β r e * Ideal.ofBits .f32 0x3D000000#32 := by
  unfold k0_pay5 k0_pay3 entry
  rw [shapeCast_ab_1ab_apply, truncf_apply, mulf_apply, addf_apply, KernelContract.rows_by_columns_512, broadcastTo_1b_ab_apply,
    shapeCast_self, shapeCast_self, broadcast_apply]
  refine congrArg (· * _) (congrArg (· + _) (Finset.sum_congr rfl fun d _ => ?_))
  rw [truncf_apply, shapeCast_1ab_ab_apply]

end Cert.ProjPayload

end
-- ==== Proof.ProjArrays.lean ====
/-
  The projection kernel's three result arrays, each as one function of the argument arrays.

  The kernel's first region runs over a grid of 4 × 8 points. Point `t` works on sequence `t / 8` and on the block
  of 512 rows `(t % 8) · 512 … (t % 8) · 512 + 511` of that sequence: it holds that block of the input rows, the
  three weight matrices and the three biases whole, and stores one block of 512 rows of each of the three results
  (queries, keys, values) at the same place `(t / 8, t % 8, 0)` of a `[4, 4096, 1024]` array. Before the region the
  host changes the float format of the three weight matrices (the identity at the ideal values) and reshapes each
  bias from `[1024]` to `[1, 1024]`; the input rows are untouched.

  Entry `(r, e)` of a stored block is row `r` of the input block against column `e` of the weights plus the bias's
  entry `e` (times the scale, for the queries). Row `r` of the block at point `t` is row `(t % 8) · 512 + r` of
  sequence `t / 8`, so the stored block is the block at `(t / 8, t % 8, 0)` of ONE array: the projection `X W + β`
  of all rows (`Cert.SigmoidAttention.proj`). The 32 blocks tile the array — entry `(b, s, e)` lies in the block of
  point `8 b + s / 512` — so after the region each result array IS that projection.
-/
import proofs.«105858_j72662256714429_2_alg».proof.Proof.Gen.KernelIdeal.Frame
import proofs.«105858_j72662256714429_2_alg».proof.Proof.ProjPayload
import proofs.«105858_j72662256714429_2_alg».proof.Proof.SigmoidAttention
import Idealize.ShloMosaic.Lib.Pipeline.Value
import Idealize.ShloMosaic.Lib.StableHlo.Run
import Idealize.ShloMosaic.Lib.ValueIdx

noncomputable section

open scoped BigOperators

namespace Cert.ProjArrays

open Cert.KernelIdeal Cert.KernelIdeal.Gen Cert.SigmoidAttention Idealize.ShloMosaic Idealize.ShloMosaic.TcCoe
open Idealize.ShloMosaic.ValueIdx Idealize.SL.Sem
open Idealize.ShloMosaic.Pipeline (Dat)

/-! ## What the region finds in its arrays: the host's operations read -/

section Host
variable (m : (ℓ : Loc nD τ sig) → Buf (Elt Ideal) ℓ) (ρ : Dev nD → PrngReg)

/-- No host operation writes the input rows: the region finds them as launched. -/
theorem host_rows (c : Dev nD) :
    (V1 m ρ c main_arg0 : S4x4096x1024.Idx → EReal) = m ((c : Thread nD τ).loc main_arg0) := by
  dsimp only [V1, W1, hostOps0]; after_results <;> rfl

/-- The query weights the region finds are the argument's, in the narrower float format. -/
theorem host_weights_queries (c : Dev nD) :
    (V1 m ρ c main_v0 : S1024x1024.Idx → EReal)
      = truncf (F := Ideal) (s := S1024x1024) (φ := .f32) .bf16 (m ((c : Thread nD τ).loc main_arg1)) bitsLt_bf16_f32 := by
  dsimp only [V1, W1, hostOps0]; after_results <;> rfl

/-- The query bias the region finds is the argument's, reshaped to one row. -/
theorem host_bias_queries (c : Dev nD) :
    (V1 m ρ c main_v3 : S1x1024.Idx → EReal)
      = shapeCast S1x1024 (m ((c : Thread nD τ).loc main_arg2)) shapeCasts_S1024_S1x1024 := by
  dsimp only [V1, W1, hostOps0]; after_results <;> rfl

/-- The key weights the region finds are the argument's, in the narrower float format. -/
theorem host_weights_keys (c : Dev nD) :
    (V1 m ρ c main_v1 : S1024x1024.Idx → EReal)
      = truncf (F := Ideal) (s := S1024x1024) (φ := .f32) .bf16 (m ((c : Thread nD τ).loc main_arg3)) bitsLt_bf16_f32 := by
  dsimp only [V1, W1, hostOps0]; after_results <;> rfl

/-- The key bias the region finds is the argument's, reshaped to one row. -/
theorem host_bias_keys (c : Dev nD) :
    (V1 m ρ c main_v4 : S1x1024.Idx → EReal)
      = shapeCast S1x1024 (m ((c : Thread nD τ).loc main_arg4)) shapeCasts_S1024_S1x1024 := by
  dsimp only [V1, W1, hostOps0]; after_results <;> rfl

/-- The value weights the region finds are the argument's, in the narrower float format. -/
theorem host_weights_values (c : Dev nD) :
    (V1 m ρ c main_v2 : S1024x1024.Idx → EReal)
      = truncf (F := Ideal) (s := S1024x1024) (φ := .f32) .bf16 (m ((c : Thread nD τ).loc main_arg5)) bitsLt_bf16_f32 := by
  dsimp only [V1, W1, hostOps0]; after_results <;> rfl

/-- The value bias the region finds is the argument's, reshaped to one row. -/
theorem host_bias_values (c : Dev nD) :
    (V1 m ρ c main_v5 : S1x1024.Idx → EReal)
      = shapeCast S1x1024 (m ((c : Thread nD τ).loc main_arg6)) shapeCasts_S1024_S1x1024 := by
  dsimp only [V1, W1, hostOps0]; after_results <;> rfl

end Host

/-! ## Where each window's block sits at a point: the index maps over the 32 points

A block's place along an axis is its block index there; the row-block windows sit at `(t / 8, t % 8, 0)`, the
weights' and biases' windows at the origin. -/

theorem point_lt (t : Fin cfg0.N) : t.val < 32 := lt_of_lt_of_eq t.isLt N_0

theorem index_rows : ∀ t : Fin cfg0.N, win0_0.index t 0 = t.val / 8 ∧ win0_0.index t 1 = t.val % 8 ∧ win0_0.index t 2 = 0 :=
  (by decide +kernel : ∀ t : Fin grid0.N, win0_0.index t 0 = t.val / 8 ∧ win0_0.index t 1 = t.val % 8 ∧ win0_0.index t 2 = 0)

theorem index_weights_queries : ∀ t : Fin cfg0.N, win0_1.index t 0 = 0 ∧ win0_1.index t 1 = 0 :=
  (by decide +kernel : ∀ t : Fin grid0.N, win0_1.index t 0 = 0 ∧ win0_1.index t 1 = 0)

theorem index_bias_queries : ∀ t : Fin cfg0.N, win0_4.index t 0 = 0 ∧ win0_4.index t 1 = 0 :=
  (by decide +kernel : ∀ t : Fin grid0.N, win0_4.index t 0 = 0 ∧ win0_4.index t 1 = 0)

theorem index_queries : ∀ t : Fin cfg0.N, win0_7.index t 0 = t.val / 8 ∧ win0_7.index t 1 = t.val % 8 ∧ win0_7.index t 2 = 0 :=
  (by decide +kernel : ∀ t : Fin grid0.N, win0_7.index t 0 = t.val / 8 ∧ win0_7.index t 1 = t.val % 8 ∧ win0_7.index t 2 = 0)

theorem index_weights_keys : ∀ t : Fin cfg0.N, win0_2.index t 0 = 0 ∧ win0_2.index t 1 = 0 :=
  (by decide +kernel : ∀ t : Fin grid0.N, win0_2.index t 0 = 0 ∧ win0_2.index t 1 = 0)

theorem index_bias_keys : ∀ t : Fin cfg0.N, win0_5.index t 0 = 0 ∧ win0_5.index t 1 = 0 :=
  (by decide +kernel : ∀ t : Fin grid0.N, win0_5.index t 0 = 0 ∧ win0_5.index t 1 = 0)

theorem index_keys : ∀ t : Fin cfg0.N, win0_8.index t 0 = t.val / 8 ∧ win0_8.index t 1 = t.val % 8 ∧ win0_8.index t 2 = 0 :=
  (by decide +kernel : ∀ t : Fin grid0.N, win0_8.index t 0 = t.val / 8 ∧ win0_8.index t 1 = t.val % 8 ∧ win0_8.index t 2 = 0)

theorem index_weights_values : ∀ t : Fin cfg0.N, win0_3.index t 0 = 0 ∧ win0_3.index t 1 = 0 :=
  (by decide +kernel : ∀ t : Fin grid0.N, win0_3.index t 0 = 0 ∧ win0_3.index t 1 = 0)

theorem index_bias_values : ∀ t : Fin cfg0.N, win0_6.index t 0 = 0 ∧ win0_6.index t 1 = 0 :=
  (by decide +kernel : ∀ t : Fin grid0.N, win0_6.index t 0 = 0 ∧ win0_6.index t 1 = 0)

theorem index_values : ∀ t : Fin cfg0.N, win0_9.index t 0 = t.val / 8 ∧ win0_9.index t 1 = t.val % 8 ∧ win0_9.index t 2 = 0 :=
  (by decide +kernel : ∀ t : Fin grid0.N, win0_9.index t 0 = t.val / 8 ∧ win0_9.index t 1 = t.val % 8 ∧ win0_9.index t 2 = 0)

theorem origin3 : (![0, 0, 0] : Fin 3 → Nat) = fun _ => 0 := funext fun a => by fin_cases a <;> rfl
theorem origin2 : (![0, 0] : Fin 2 → Nat) = fun _ => 0 := funext fun a => by fin_cases a <;> rfl

/-! ## The blocks, read off the arrays as the region finds them (`V`) -/

section Blocks
variable (V : (c : Dev nD) → (b : Ref sig .tc) → Buf (Elt Ideal) ((c : Thread nD τ).loc b))

/-- Row `r` of the input block at point `t` is row `(t % 8) · 512 + r` of sequence `t / 8`. -/
theorem rows_block (c : Dev nD) (t : Fin cfg0.N) (u : Fin 1) (r : Fin 512) (d : Fin 1024) (b : Fin 4) (s : Fin 4096)
    (hb : b.val = t.val / 8) (hs : s.val = (t.val % 8) * 512 + r.val) :
    (iblk0 V c 0 t : Vec Ideal S1x512x1024 .f32) (ix3 u r d) = (V c main_arg0 : S4x4096x1024.Idx → EReal) (ix3 b s d) := by
  obtain ⟨e0, e1, e2⟩ := index_rows t
  unfold iblk0
  rw [View.read_apply]
  show V c main_arg0 _ = V c main_arg0 _
  congr 1
  funext a
  apply Fin.ext
  match a with
  | ⟨0, _⟩ => show win0_0.index t 0 * 1 + 1 * u.val = b.val; rw [e0, hb]; omega
  | ⟨1, _⟩ => show win0_0.index t 1 * 512 + 1 * r.val = s.val; rw [e1, hs]; omega
  | ⟨2, _⟩ => show win0_0.index t 2 * 1024 + 1 * d.val = d.val; rw [e2]; omega

/-- The query weights' block at any point is the whole matrix. -/
theorem weights_queries_block (c : Dev nD) (t : Fin cfg0.N) (d e : Fin 1024) :
    (iblk0 V c 1 t : Vec Ideal S1024x1024 .bf16) (ix2 d e) = (V c main_v0 : S1024x1024.Idx → EReal) (ix2 d e) := by
  obtain ⟨e0, e1⟩ := index_weights_queries t
  unfold iblk0
  rw [View.read_apply]
  show V c main_v0 _ = V c main_v0 _
  congr 1
  funext a
  apply Fin.ext
  match a with
  | ⟨0, _⟩ => show win0_1.index t 0 * 1024 + 1 * d.val = d.val; rw [e0]; omega
  | ⟨1, _⟩ => show win0_1.index t 1 * 1024 + 1 * e.val = e.val; rw [e1]; omega

/-- The query bias's block at any point is the whole row. -/
theorem bias_queries_block (c : Dev nD) (t : Fin cfg0.N) (u : Fin 1) (e : Fin 1024) :
    (iblk0 V c 4 t : Vec Ideal S1x1024 .f32) (ix2 u e) = (V c main_v3 : S1x1024.Idx → EReal) (ix2 u e) := by
  obtain ⟨e0, e1⟩ := index_bias_queries t
  unfold iblk0
  rw [View.read_apply]
  show V c main_v3 _ = V c main_v3 _
  congr 1
  funext a
  apply Fin.ext
  match a with
  | ⟨0, _⟩ => show win0_4.index t 0 * 1 + 1 * u.val = u.val; rw [e0]; omega
  | ⟨1, _⟩ => show win0_4.index t 1 * 1024 + 1 * e.val = e.val; rw [e1]; omega

/-- The key weights' block at any point is the whole matrix. -/
theorem weights_keys_block (c : Dev nD) (t : Fin cfg0.N) (d e : Fin 1024) :
    (iblk0 V c 2 t : Vec Ideal S1024x1024 .bf16) (ix2 d e) = (V c main_v1 : S1024x1024.Idx → EReal) (ix2 d e) := by
  obtain ⟨e0, e1⟩ := index_weights_keys t
  unfold iblk0
  rw [View.read_apply]
  show V c main_v1 _ = V c main_v1 _
  congr 1
  funext a
  apply Fin.ext
  match a with
  | ⟨0, _⟩ => show win0_2.index t 0 * 1024 + 1 * d.val = d.val; rw [e0]; omega
  | ⟨1, _⟩ => show win0_2.index t 1 * 1024 + 1 * e.val = e.val; rw [e1]; omega

/-- The key bias's block at any point is the whole row. -/
theorem bias_keys_block (c : Dev nD) (t : Fin cfg0.N) (u : Fin 1) (e : Fin 1024) :
    (iblk0 V c 5 t : Vec Ideal S1x1024 .f32) (ix2 u e) = (V c main_v4 : S1x1024.Idx → EReal) (ix2 u e) := by
  obtain ⟨e0, e1⟩ := index_bias_keys t
  unfold iblk0
  rw [View.read_apply]
  show V c main_v4 _ = V c main_v4 _
  congr 1
  funext a
  apply Fin.ext
  match a with
  | ⟨0, _⟩ => show win0_5.index t 0 * 1 + 1 * u.val = u.val; rw [e0]; omega
  | ⟨1, _⟩ => show win0_5.index t 1 * 1024 + 1 * e.val = e.val; rw [e1]; omega

/-- The value weights' block at any point is the whole matrix. -/
theorem weights_values_block (c : Dev nD) (t : Fin cfg0.N) (d e : Fin 1024) :
    (iblk0 V c 3 t : Vec Ideal S1024x1024 .bf16) (ix2 d e) = (V c main_v2 : S1024x1024.Idx → EReal) (ix2 d e) := by
  obtain ⟨e0, e1⟩ := index_weights_values t
  unfold iblk0
  rw [View.read_apply]
  show V c main_v2 _ = V c main_v2 _
  congr 1
  funext a
  apply Fin.ext
  match a with
  | ⟨0, _⟩ => show win0_3.index t 0 * 1024 + 1 * d.val = d.val; rw [e0]; omega
  | ⟨1, _⟩ => show win0_3.index t 1 * 1024 + 1 * e.val = e.val; rw [e1]; omega

/-- The value bias's block at any point is the whole row. -/
theorem bias_values_block (c : Dev nD) (t : Fin cfg0.N) (u : Fin 1) (e : Fin 1024) :
    (iblk0 V c 6 t : Vec Ideal S1x1024 .f32) (ix2 u e) = (V c main_v5 : S1x1024.Idx → EReal) (ix2 u e) := by
  obtain ⟨e0, e1⟩ := index_bias_values t
  unfold iblk0
  rw [View.read_apply]
  show V c main_v5 _ = V c main_v5 _
  congr 1
  funext a
  apply Fin.ext
  match a with
  | ⟨0, _⟩ => show win0_6.index t 0 * 1 + 1 * u.val = u.val; rw [e0]; omega
  | ⟨1, _⟩ => show win0_6.index t 1 * 1024 + 1 * e.val = e.val; rw [e1]; omega

end Blocks

/-! ## The queries -/

section Queries
variable (V : (c : Dev nD) → (b : Ref sig .tc) → Buf (Elt Ideal) ((c : Thread nD τ).loc b))

/-- Entry `(u, r, e)` of the query block at point `t` sits at `(t / 8, (t % 8) · 512 + r, e)` of the array. -/
theorem queries_place (t : Fin cfg0.N) (u : Fin 1) (r : Fin 512) (e : Fin 1024) (b : Fin 4) (s : Fin 4096)
    (hb : b.val = t.val / 8) (hs : s.val = (t.val % 8) * 512 + r.val) :
    (((cfg0.win 7).blk t).view.emb (ix3 u r e) : S4x4096x1024.Idx) = ix3 b s e := by
  obtain ⟨e0, e1, e2⟩ := index_queries t
  funext a
  apply Fin.ext
  match a with
  | ⟨0, _⟩ => show win0_7.index t 0 * 1 + 1 * u.val = b.val; rw [e0, hb]; omega
  | ⟨1, _⟩ => show win0_7.index t 1 * 512 + 1 * r.val = s.val; rw [e1, hs]; omega
  | ⟨2, _⟩ => show win0_7.index t 2 * 1024 + 1 * e.val = e.val; rw [e2]; omega

/-- What point `t` stores at entry `(u, r, e)` of its query block is the projection times the scale at the entry's place in the
    array, for any arrays `X`, `W`, `B` that the region's rows, weights and bias agree with. -/
theorem queries_point (c : Dev nD) (t : Fin cfg0.N) (X : Rows.Idx → EReal) (W : Weights.Idx → EReal) (B : Bias.Idx → EReal)
    (hX : (V c main_arg0 : S4x4096x1024.Idx → EReal) = X)
    (hW : ∀ d e : Fin 1024, (V c main_v0 : S1024x1024.Idx → EReal) (ix2 d e) = W (ix2 d e))
    (hB : ∀ e : Fin 1024, (V c main_v3 : S1x1024.Idx → EReal) (ix2 (0 : Fin 1) e) = B (ix1 e))
    (u : Fin 1) (r : Fin 512) (e : Fin 1024) (b : Fin 4) (s : Fin 4096)
    (hb : b.val = t.val / 8) (hs : s.val = (t.val % 8) * 512 + r.val) :
    k0_pay5 (F := Ideal) (iblk0 V c 0 t) (iblk0 V c 1 t) (iblk0 V c 4 t) (ix3 u r e)
      = ((cfg0.win 7).blk t).view.read (Elt Ideal)
          (fun j : S4x4096x1024.Idx => proj X W B (j 0) (j 1) (j 2) * Ideal.ofBits .f32 0x3D000000#32) (ix3 u r e) := by
  rw [View.read_apply]
  refine (ProjPayload.queries_apply (iblk0 V c 0 t) (iblk0 V c 1 t) (iblk0 V c 4 t) u r e).trans ?_
  refine Eq.trans ?_ (congrArg (fun j : S4x4096x1024.Idx => proj X W B (j 0) (j 1) (j 2) * Ideal.ofBits .f32 0x3D000000#32)
    (queries_place t u r e b s hb hs)).symm
  show ProjPayload.entry _ _ _ r e * _ = proj X W B b s e * _
  unfold ProjPayload.entry proj
  refine congrArg (· * _) ?_
  refine congr (congrArg HAdd.hAdd (Finset.sum_congr rfl fun d _ => ?_)) ?_
  · rw [rows_block V c t 0 r d b s hb hs, weights_queries_block V c t d e, hX, hW]
  · rw [bias_queries_block V c t 0 e, hB]

/-- What point `t` writes back to the queries' array is the block at `t` of the projection times the scale. -/
theorem queries_flushed (c : Dev nD) (t : Fin cfg0.N) (X : Rows.Idx → EReal) (W : Weights.Idx → EReal) (B : Bias.Idx → EReal)
    (hX : (V c main_arg0 : S4x4096x1024.Idx → EReal) = X)
    (hW : ∀ d e : Fin 1024, (V c main_v0 : S1024x1024.Idx → EReal) (ix2 d e) = W (ix2 d e))
    (hB : ∀ e : Fin 1024, (V c main_v3 : S1x1024.Idx → EReal) (ix2 (0 : Fin 1) e) = B (ix1 e)) :
    (dat0 V c).flushed 7 t = ((cfg0.win 7).blk t).view.read (Elt Ideal)
      (fun j : S4x4096x1024.Idx => proj X W B (j 0) (j 1) (j 2) * Ideal.ofBits .f32 0x3D000000#32) := by
  show (cfg0.win 7).cut (grid0.coords t) ((dat0 V c).after 7 t) = _
  rw [after0_7]
  unfold out0_7
  rw [View.canon_unit_zero origin3]
  simp only [View.ld_unit_zero (S := S1x512x1024) origin3, View.ld_unit_zero (S := S1024x1024) origin2,
    View.ld_unit_zero (S := S1x1024) origin2]
  refine funext fun (y : S1x512x1024.Idx) => ?_
  obtain ⟨u, r, e, rfl⟩ : ∃ (u : Fin 1) (r : Fin 512) (e : Fin 1024), y = ix3 u r e := ⟨y 0, y 1, y 2, eq_ix3 y⟩
  have ht := point_lt t
  have hr := r.isLt
  exact queries_point V c t X W B hX hW hB u r e ⟨t.val / 8, by omega⟩ ⟨(t.val % 8) * 512 + r.val, by omega⟩ rfl rfl

/-- An entry of the array is in point `t`'s query block iff each coordinate is in the block's range on its axis. -/
theorem queries_mem_block (t : Fin cfg0.N) (i : S4x4096x1024.Idx) :
    i ∈ ((cfg0.win 7).blk t).view.set ↔ ∀ a : Fin 3, win0_7.index t a * S1x512x1024.size a ≤ (i a).val
      ∧ (i a).val < win0_7.index t a * S1x512x1024.size a + S1x512x1024.size a := by
  show i ∈ ((View.whole main_v6_0).slice (win0_7.rect t)).set ↔ _
  rw [View.set_slice_whole, Rect.mem_set_unit]
  exact Iff.rfl

/-- The 32 blocks tile the array: entry `(b, s, e)` is in the block of point `8 b + s / 512`. -/
theorem queries_cover (i : S4x4096x1024.Idx) :
    ∃ t : Fin cfg0.N, (cfg0.win 7).flush t = true ∧ i ∈ ((cfg0.win 7).blk t).view.set := by
  have h0 : (i 0).val < 4 := (i 0).isLt
  have h1 : (i 1).val < 4096 := (i 1).isLt
  have h2 : (i 2).val < 1024 := (i 2).isLt
  obtain ⟨t, tv⟩ : ∃ t : Fin cfg0.N, t.val = (i 0).val * 8 + (i 1).val / 512 :=
    ⟨⟨(i 0).val * 8 + (i 1).val / 512, lt_of_lt_of_eq (by omega) N_0.symm⟩, rfl⟩
  obtain ⟨e0, e1, e2⟩ := index_queries t
  refine ⟨t, flush0_7 t, ?_⟩
  rw [queries_mem_block]
  intro a
  match a with
  | ⟨0, _⟩ => show win0_7.index t 0 * 1 ≤ (i 0).val ∧ (i 0).val < win0_7.index t 0 * 1 + 1; rw [e0, tv]; omega
  | ⟨1, _⟩ => show win0_7.index t 1 * 512 ≤ (i 1).val ∧ (i 1).val < win0_7.index t 1 * 512 + 512; rw [e1, tv]; omega
  | ⟨2, _⟩ => show win0_7.index t 2 * 1024 ≤ (i 2).val ∧ (i 2).val < win0_7.index t 2 * 1024 + 1024; rw [e2]; omega

end Queries

/-! ## The keys -/

section Keys
variable (V : (c : Dev nD) → (b : Ref sig .tc) → Buf (Elt Ideal) ((c : Thread nD τ).loc b))

/-- Entry `(u, r, e)` of the key block at point `t` sits at `(t / 8, (t % 8) · 512 + r, e)` of the array. -/
theorem keys_place (t : Fin cfg0.N) (u : Fin 1) (r : Fin 512) (e : Fin 1024) (b : Fin 4) (s : Fin 4096)
    (hb : b.val = t.val / 8) (hs : s.val = (t.val % 8) * 512 + r.val) :
    (((cfg0.win 8).blk t).view.emb (ix3 u r e) : S4x4096x1024.Idx) = ix3 b s e := by
  obtain ⟨e0, e1, e2⟩ := index_keys t
  funext a
  apply Fin.ext
  match a with
  | ⟨0, _⟩ => show win0_8.index t 0 * 1 + 1 * u.val = b.val; rw [e0, hb]; omega
  | ⟨1, _⟩ => show win0_8.index t 1 * 512 + 1 * r.val = s.val; rw [e1, hs]; omega
  | ⟨2, _⟩ => show win0_8.index t 2 * 1024 + 1 * e.val = e.val; rw [e2]; omega

/-- What point `t` stores at entry `(u, r, e)` of its key block is the projection at the entry's place in the
    array, for any arrays `X`, `W`, `B` that the region's rows, weights and bias agree with. -/
theorem keys_point (c : Dev nD) (t : Fin cfg0.N) (X : Rows.Idx → EReal) (W : Weights.Idx → EReal) (B : Bias.Idx → EReal)
    (hX : (V c main_arg0 : S4x4096x1024.Idx → EReal) = X)
    (hW : ∀ d e : Fin 1024, (V c main_v1 : S1024x1024.Idx → EReal) (ix2 d e) = W (ix2 d e))
    (hB : ∀ e : Fin 1024, (V c main_v4 : S1x1024.Idx → EReal) (ix2 (0 : Fin 1) e) = B (ix1 e))
    (u : Fin 1) (r : Fin 512) (e : Fin 1024) (b : Fin 4) (s : Fin 4096)
    (hb : b.val = t.val / 8) (hs : s.val = (t.val % 8) * 512 + r.val) :
    k0_pay1 (F := Ideal) (k0_pay6 (iblk0 V c 0 t) (iblk0 V c 2 t) (iblk0 V c 5 t)) (ix3 u r e)
      = ((cfg0.win 8).blk t).view.read (Elt Ideal)
          (fun j : S4x4096x1024.Idx => proj X W B (j 0) (j 1) (j 2)) (ix3 u r e) := by
  rw [View.read_apply]
  refine (ProjPayload.keys_apply (iblk0 V c 0 t) (iblk0 V c 2 t) (iblk0 V c 5 t) u r e).trans ?_
  refine Eq.trans ?_ (congrArg (fun j : S4x4096x1024.Idx => proj X W B (j 0) (j 1) (j 2))
    (keys_place t u r e b s hb hs)).symm
  show ProjPayload.entry _ _ _ r e = proj X W B b s e
  unfold ProjPayload.entry proj
  refine congr (congrArg HAdd.hAdd (Finset.sum_congr rfl fun d _ => ?_)) ?_
  · rw [rows_block V c t 0 r d b s hb hs, weights_keys_block V c t d e, hX, hW]
  · rw [bias_keys_block V c t 0 e, hB]

/-- What point `t` writes back to the keys' array is the block at `t` of the projection. -/
theorem keys_flushed (c : Dev nD) (t : Fin cfg0.N) (X : Rows.Idx → EReal) (W : Weights.Idx → EReal) (B : Bias.Idx → EReal)
    (hX : (V c main_arg0 : S4x4096x1024.Idx → EReal) = X)
    (hW : ∀ d e : Fin 1024, (V c main_v1 : S1024x1024.Idx → EReal) (ix2 d e) = W (ix2 d e))
    (hB : ∀ e : Fin 1024, (V c main_v4 : S1x1024.Idx → EReal) (ix2 (0 : Fin 1) e) = B (ix1 e)) :
    (dat0 V c).flushed 8 t = ((cfg0.win 8).blk t).view.read (Elt Ideal)
      (fun j : S4x4096x1024.Idx => proj X W B (j 0) (j 1) (j 2)) := by
  show (cfg0.win 8).cut (grid0.coords t) ((dat0 V c).after 8 t) = _
  rw [after0_8]
  unfold out0_8
  rw [View.canon_unit_zero origin3]
  simp only [View.ld_unit_zero (S := S1x512x1024) origin3, View.ld_unit_zero (S := S1024x1024) origin2,
    View.ld_unit_zero (S := S1x1024) origin2]
  refine funext fun (y : S1x512x1024.Idx) => ?_
  obtain ⟨u, r, e, rfl⟩ : ∃ (u : Fin 1) (r : Fin 512) (e : Fin 1024), y = ix3 u r e := ⟨y 0, y 1, y 2, eq_ix3 y⟩
  have ht := point_lt t
  have hr := r.isLt
  exact keys_point V c t X W B hX hW hB u r e ⟨t.val / 8, by omega⟩ ⟨(t.val % 8) * 512 + r.val, by omega⟩ rfl rfl

/-- An entry of the array is in point `t`'s key block iff each coordinate is in the block's range on its axis. -/
theorem keys_mem_block (t : Fin cfg0.N) (i : S4x4096x1024.Idx) :
    i ∈ ((cfg0.win 8).blk t).view.set ↔ ∀ a : Fin 3, win0_8.index t a * S1x512x1024.size a ≤ (i a).val
      ∧ (i a).val < win0_8.index t a * S1x512x1024.size a + S1x512x1024.size a := by
  show i ∈ ((View.whole main_v6_1).slice (win0_8.rect t)).set ↔ _
  rw [View.set_slice_whole, Rect.mem_set_unit]
  exact Iff.rfl

/-- The 32 blocks tile the array: entry `(b, s, e)` is in the block of point `8 b + s / 512`. -/
theorem keys_cover (i : S4x4096x1024.Idx) :
    ∃ t : Fin cfg0.N, (cfg0.win 8).flush t = true ∧ i ∈ ((cfg0.win 8).blk t).view.set := by
  have h0 : (i 0).val < 4 := (i 0).isLt
  have h1 : (i 1).val < 4096 := (i 1).isLt
  have h2 : (i 2).val < 1024 := (i 2).isLt
  obtain ⟨t, tv⟩ : ∃ t : Fin cfg0.N, t.val = (i 0).val * 8 + (i 1).val / 512 :=
    ⟨⟨(i 0).val * 8 + (i 1).val / 512, lt_of_lt_of_eq (by omega) N_0.symm⟩, rfl⟩
  obtain ⟨e0, e1, e2⟩ := index_keys t
  refine ⟨t, flush0_8 t, ?_⟩
  rw [keys_mem_block]
  intro a
  match a with
  | ⟨0, _⟩ => show win0_8.index t 0 * 1 ≤ (i 0).val ∧ (i 0).val < win0_8.index t 0 * 1 + 1; rw [e0, tv]; omega
  | ⟨1, _⟩ => show win0_8.index t 1 * 512 ≤ (i 1).val ∧ (i 1).val < win0_8.index t 1 * 512 + 512; rw [e1, tv]; omega
  | ⟨2, _⟩ => show win0_8.index t 2 * 1024 ≤ (i 2).val ∧ (i 2).val < win0_8.index t 2 * 1024 + 1024; rw [e2]; omega

end Keys

/-! ## The values -/

section Values
variable (V : (c : Dev nD) → (b : Ref sig .tc) → Buf (Elt Ideal) ((c : Thread nD τ).loc b))

/-- Entry `(u, r, e)` of the value block at point `t` sits at `(t / 8, (t % 8) · 512 + r, e)` of the array. -/
theorem values_place (t : Fin cfg0.N) (u : Fin 1) (r : Fin 512) (e : Fin 1024) (b : Fin 4) (s : Fin 4096)
    (hb : b.val = t.val / 8) (hs : s.val = (t.val % 8) * 512 + r.val) :
    (((cfg0.win 9).blk t).view.emb (ix3 u r e) : S4x4096x1024.Idx) = ix3 b s e := by
  obtain ⟨e0, e1, e2⟩ := index_values t
  funext a
  apply Fin.ext
  match a with
  | ⟨0, _⟩ => show win0_9.index t 0 * 1 + 1 * u.val = b.val; rw [e0, hb]; omega
  | ⟨1, _⟩ => show win0_9.index t 1 * 512 + 1 * r.val = s.val; rw [e1, hs]; omega
  | ⟨2, _⟩ => show win0_9.index t 2 * 1024 + 1 * e.val = e.val; rw [e2]; omega

/-- What point `t` stores at entry `(u, r, e)` of its value block is the projection at the entry's place in the
    array, for any arrays `X`, `W`, `B` that the region's rows, weights and bias agree with. -/
theorem values_point (c : Dev nD) (t : Fin cfg0.N) (X : Rows.Idx → EReal) (W : Weights.Idx → EReal) (B : Bias.Idx → EReal)
    (hX : (V c main_arg0 : S4x4096x1024.Idx → EReal) = X)
    (hW : ∀ d e : Fin 1024, (V c main_v2 : S1024x1024.Idx → EReal) (ix2 d e) = W (ix2 d e))
    (hB : ∀ e : Fin 1024, (V c main_v5 : S1x1024.Idx → EReal) (ix2 (0 : Fin 1) e) = B (ix1 e))
    (u : Fin 1) (r : Fin 512) (e : Fin 1024) (b : Fin 4) (s : Fin 4096)
    (hb : b.val = t.val / 8) (hs : s.val = (t.val % 8) * 512 + r.val) :
    k0_pay2 (F := Ideal) (k0_pay4 (iblk0 V c 0 t) (iblk0 V c 3 t) (iblk0 V c 6 t)) (ix3 u r e)
      = ((cfg0.win 9).blk t).view.read (Elt Ideal)
          (fun j : S4x4096x1024.Idx => proj X W B (j 0) (j 1) (j 2)) (ix3 u r e) := by
  rw [View.read_apply]
  refine (ProjPayload.values_apply (iblk0 V c 0 t) (iblk0 V c 3 t) (iblk0 V c 6 t) u r e).trans ?_
  refine Eq.trans ?_ (congrArg (fun j : S4x4096x1024.Idx => proj X W B (j 0) (j 1) (j 2))
    (values_place t u r e b s hb hs)).symm
  show ProjPayload.entry _ _ _ r e = proj X W B b s e
  unfold ProjPayload.entry proj
  refine congr (congrArg HAdd.hAdd (Finset.sum_congr rfl fun d _ => ?_)) ?_
  · rw [rows_block V c t 0 r d b s hb hs, weights_values_block V c t d e, hX, hW]
  · rw [bias_values_block V c t 0 e, hB]

/-- What point `t` writes back to the values' array is the block at `t` of the projection. -/
theorem values_flushed (c : Dev nD) (t : Fin cfg0.N) (X : Rows.Idx → EReal) (W : Weights.Idx → EReal) (B : Bias.Idx → EReal)
    (hX : (V c main_arg0 : S4x4096x1024.Idx → EReal) = X)
    (hW : ∀ d e : Fin 1024, (V c main_v2 : S1024x1024.Idx → EReal) (ix2 d e) = W (ix2 d e))
    (hB : ∀ e : Fin 1024, (V c main_v5 : S1x1024.Idx → EReal) (ix2 (0 : Fin 1) e) = B (ix1 e)) :
    (dat0 V c).flushed 9 t = ((cfg0.win 9).blk t).view.read (Elt Ideal)
      (fun j : S4x4096x1024.Idx => proj X W B (j 0) (j 1) (j 2)) := by
  show (cfg0.win 9).cut (grid0.coords t) ((dat0 V c).after 9 t) = _
  rw [after0_9]
  unfold out0_9
  rw [View.canon_unit_zero origin3]
  simp only [View.ld_unit_zero (S := S1x512x1024) origin3, View.ld_unit_zero (S := S1024x1024) origin2,
    View.ld_unit_zero (S := S1x1024) origin2]
  refine funext fun (y : S1x512x1024.Idx) => ?_
  obtain ⟨u, r, e, rfl⟩ : ∃ (u : Fin 1) (r : Fin 512) (e : Fin 1024), y = ix3 u r e := ⟨y 0, y 1, y 2, eq_ix3 y⟩
  have ht := point_lt t
  have hr := r.isLt
  exact values_point V c t X W B hX hW hB u r e ⟨t.val / 8, by omega⟩ ⟨(t.val % 8) * 512 + r.val, by omega⟩ rfl rfl

/-- An entry of the array is in point `t`'s value block iff each coordinate is in the block's range on its axis. -/
theorem values_mem_block (t : Fin cfg0.N) (i : S4x4096x1024.Idx) :
    i ∈ ((cfg0.win 9).blk t).view.set ↔ ∀ a : Fin 3, win0_9.index t a * S1x512x1024.size a ≤ (i a).val
      ∧ (i a).val < win0_9.index t a * S1x512x1024.size a + S1x512x1024.size a := by
  show i ∈ ((View.whole main_v6_2).slice (win0_9.rect t)).set ↔ _
  rw [View.set_slice_whole, Rect.mem_set_unit]
  exact Iff.rfl

/-- The 32 blocks tile the array: entry `(b, s, e)` is in the block of point `8 b + s / 512`. -/
theorem values_cover (i : S4x4096x1024.Idx) :
    ∃ t : Fin cfg0.N, (cfg0.win 9).flush t = true ∧ i ∈ ((cfg0.win 9).blk t).view.set := by
  have h0 : (i 0).val < 4 := (i 0).isLt
  have h1 : (i 1).val < 4096 := (i 1).isLt
  have h2 : (i 2).val < 1024 := (i 2).isLt
  obtain ⟨t, tv⟩ : ∃ t : Fin cfg0.N, t.val = (i 0).val * 8 + (i 1).val / 512 :=
    ⟨⟨(i 0).val * 8 + (i 1).val / 512, lt_of_lt_of_eq (by omega) N_0.symm⟩, rfl⟩
  obtain ⟨e0, e1, e2⟩ := index_values t
  refine ⟨t, flush0_9 t, ?_⟩
  rw [values_mem_block]
  intro a
  match a with
  | ⟨0, _⟩ => show win0_9.index t 0 * 1 ≤ (i 0).val ∧ (i 0).val < win0_9.index t 0 * 1 + 1; rw [e0, tv]; omega
  | ⟨1, _⟩ => show win0_9.index t 1 * 512 ≤ (i 1).val ∧ (i 1).val < win0_9.index t 1 * 512 + 512; rw [e1, tv]; omega
  | ⟨2, _⟩ => show win0_9.index t 2 * 1024 ≤ (i 2).val ∧ (i 2).val < win0_9.index t 2 * 1024 + 1024; rw [e2]; omega

end Values

/-! ## The three arrays after the region -/

section Arrays
variable (m : (ℓ : Loc nD τ sig) → Buf (Elt Ideal) ℓ) (ρ : Dev nD → PrngReg)

/-- After the region the queries' array is the projection of the input rows by the query weights and bias times the scale. -/
theorem queries_array (c : Dev nD) :
    (dat0 (V1 m ρ) c).arrAt 7 cfg0.N = fun j => proj (m ((c : Thread nD τ).loc main_arg0)) (m ((c : Thread nD τ).loc main_arg1))
      (m ((c : Thread nD τ).loc main_arg2)) (j 0) (j 1) (j 2) * Ideal.ofBits .f32 0x3D000000#32 :=
  (dat0 (V1 m ρ) c).arrAt_eq_of_cover 7 _
    (fun t _ => queries_flushed (V1 m ρ) c t _ _ _ (host_rows m ρ c)
      (fun d e => by rw [host_weights_queries]; rfl) (fun e => by rw [host_bias_queries, shapeCast_a_1a_apply]))
    queries_cover

/-- After the region the keys' array is the projection of the input rows by the key weights and bias. -/
theorem keys_array (c : Dev nD) :
    (dat0 (V1 m ρ) c).arrAt 8 cfg0.N = fun j => proj (m ((c : Thread nD τ).loc main_arg0)) (m ((c : Thread nD τ).loc main_arg3))
      (m ((c : Thread nD τ).loc main_arg4)) (j 0) (j 1) (j 2) :=
  (dat0 (V1 m ρ) c).arrAt_eq_of_cover 8 _
    (fun t _ => keys_flushed (V1 m ρ) c t _ _ _ (host_rows m ρ c)
      (fun d e => by rw [host_weights_keys]; rfl) (fun e => by rw [host_bias_keys, shapeCast_a_1a_apply]))
    keys_cover

/-- After the region the values' array is the projection of the input rows by the value weights and bias. -/
theorem values_array (c : Dev nD) :
    (dat0 (V1 m ρ) c).arrAt 9 cfg0.N = fun j => proj (m ((c : Thread nD τ).loc main_arg0)) (m ((c : Thread nD τ).loc main_arg5))
      (m ((c : Thread nD τ).loc main_arg6)) (j 0) (j 1) (j 2) :=
  (dat0 (V1 m ρ) c).arrAt_eq_of_cover 9 _
    (fun t _ => values_flushed (V1 m ρ) c t _ _ _ (host_rows m ρ c)
      (fun d e => by rw [host_weights_values]; rfl) (fun e => by rw [host_bias_values, shapeCast_a_1a_apply]))
    values_cover

end Arrays

end Cert.ProjArrays

end
-- ==== Proof.LibIsReal.lean ====
/-
  Extended reals that are real numbers, and a real weight moved across absolute differences.

  `IsReal x` says the extended real `x` is (the image of) a real number. Real numbers are closed under sums,
  differences, the absolute value taken as the larger of `x` and `-x` (`absE`), and finite sums (`isReal_sum`), so a
  quantity built from real pieces by these operations stays away from both infinities, where the extended reals do
  not distribute. For real `A B C D w` (`weighted_abs`):
    |A w - B w| + |C w - D w| = |w| (|A - B| + |C - D|).
  Nothing here mentions a program: the file depends on Mathlib's extended reals only.
-/
import Mathlib.Data.EReal.Basic
import Mathlib.Data.EReal.Operations
import Mathlib.Algebra.BigOperators.Group.Finset.Basic
import Mathlib.Algebra.Order.AbsoluteValue.Basic
import Mathlib.Tactic.Ring

noncomputable section

namespace Cert.EdgeLoss

/-- The absolute value as both programs take it: the larger of `x` and `-x`. -/
def absE (x : EReal) : EReal := max x (-x)

/-- An extended real that is a real number. -/
def IsReal (x : EReal) : Prop := ∃ r : ℝ, x = (r : EReal)

theorem isReal_zero : IsReal 0 := ⟨0, EReal.coe_zero.symm⟩

/-- The inclusion of the reals is monotone, so it commutes with the larger of two numbers. -/
theorem coe_max (a b : ℝ) : ((max a b : ℝ) : EReal) = max (a : EReal) (b : EReal) :=
  EReal.coe_strictMono.monotone.map_max

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.absE {x : EReal} (hx : IsReal x) : IsReal (absE x) := by
  obtain ⟨a, rfl⟩ := hx
  exact ⟨max a (-a), by rw [Cert.EdgeLoss.absE, coe_max, EReal.coe_neg]⟩

theorem isReal_sum {ι : Type} (s : Finset ι) (f : ι → EReal) (hf : ∀ i ∈ s, IsReal (f i)) : IsReal (∑ i ∈ s, f i) := by
  classical
  induction s using Finset.induction_on with
  | empty => rw [Finset.sum_empty]; exact isReal_zero
  | insert a s ha ih =>
    rw [Finset.sum_insert ha]
    exact (hf a (Finset.mem_insert_self a s)).add (ih fun i hi => hf i (Finset.mem_insert_of_mem hi))

/-! ## A finite weight moves across the differences -/

/-- For real numbers, |A w - B w| + |C w - D w| = |w| (|A - B| + |C - D|): the reference weights each structure
    before it subtracts, the kernel weights the sum of the two absolute differences. -/
theorem weighted_abs {A B C D w : EReal} (hA : IsReal A) (hB : IsReal B) (hC : IsReal C) (hD : IsReal D) (hw : IsReal w) :
    absE (A * w - B * w) + absE (C * w - D * w) = absE w * (absE (A - B) + absE (C - D)) := by
  obtain ⟨a, rfl⟩ := hA; obtain ⟨b, rfl⟩ := hB; obtain ⟨c, rfl⟩ := hC; obtain ⟨d, rfl⟩ := hD; obtain ⟨v, rfl⟩ := hw
  simp only [absE, ← EReal.coe_mul, ← EReal.coe_sub, ← EReal.coe_neg, ← coe_max, ← EReal.coe_add]
  refine congrArg _ ?_
  simp only [← abs_eq_max_neg]
  rw [← sub_mul, ← sub_mul, abs_mul, abs_mul]
  ring

end Cert.EdgeLoss

end
-- ==== Proof.LibRealScale.lean ====
/-
  A real factor moved across a finite sum of products, on the extended reals.

  The extended reals are not a ring: a product does not distribute over a sum at an infinity (the sum may be
  `⊤ + ⊥`). For extended reals that are real numbers (`IsReal`) every ring identity of the reals holds, because
  the inclusion of the reals commutes with products and with finite sums (`coe_finset_sum`). This file proves that
  real numbers are closed under products (`IsReal.mul`), that the image of a real number is real (`isReal_coe`),
  and the identity used for a scaled inner product (`scale_sum`):
    ∑ i, (a i * c) * b i = (∑ i, a i * b i) * c    for real a i, b i, c.
  Nothing here mentions a program: the file depends on Mathlib's extended reals only.
-/
import Mathlib
import proofs.«105858_j72662256714429_2_alg».proof.Proof.LibIsReal

noncomputable section

open scoped BigOperators

namespace Cert.EdgeLoss

/-- The product of two real numbers is a real number. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

end Cert.EdgeLoss

namespace Cert.RealScale

open Cert.EdgeLoss

/-- The image of a real number is real. -/
theorem isReal_coe (r : ℝ) : IsReal (r : EReal) := ⟨r, rfl⟩

/-- The inclusion of the reals commutes with finite sums. -/
theorem coe_finset_sum {ι : Type} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A real factor moves across a finite sum of products of real numbers. On the extended reals this needs the
    terms real: at an infinity the product does not distribute. -/
theorem scale_sum {ι : Type} [Fintype ι] (a b : ι → EReal) (c : EReal)
    (ha : ∀ i, IsReal (a i)) (hb : ∀ i, IsReal (b i)) (hc : IsReal c) :
    ∑ i, (a i * c) * b i = (∑ i, a i * b i) * c := by
  choose a' ha' using ha
  choose b' hb' using hb
  obtain ⟨c', rfl⟩ := hc
  have h1 : ∀ i, (a i * (c' : EReal)) * b i = ((a' i * c' * b' i : ℝ) : EReal) := fun i => by
    rw [ha' i, hb' i, EReal.coe_mul, EReal.coe_mul]
  have h2 : ∀ i, a i * b i = ((a' i * b' i : ℝ) : EReal) := fun i => by
    rw [ha' i, hb' i, EReal.coe_mul]
  rw [Finset.sum_congr rfl fun i _ => h1 i, Finset.sum_congr rfl fun i _ => h2 i,
    ← coe_finset_sum, ← coe_finset_sum, ← EReal.coe_mul, Finset.sum_mul]
  refine congrArg _ (Finset.sum_congr rfl fun i _ => ?_)
  ring

end Cert.RealScale

end
-- ==== Proof.Arrange.lean ====
/-
  The two arrangements of sigmoid attention are one quantity.

  `scoreBefore` scales every query entry before the inner product and `scoreAfter` scales the finished inner
  product; for real entries and a real scale they agree, because the reals are a commutative ring
  (`scoreBefore_eq_scoreAfter`; on the extended reals the hypothesis is needed, a product does not distribute at an
  infinity). A projection of real rows by a real matrix with a real bias is real (`isReal_proj`), which is where
  that hypothesis comes from. `attendBlocks` sums the 4096 keys as four blocks of 1024 taken in order and
  `attendWhole` sums them in one pass; these agree for all extended reals, because `(kb, k') ↦ 1024 kb + k'` is a
  bijection of `Fin 4 × Fin 1024` with `Fin 4096` and a finite sum of a commutative monoid may be re-indexed
  (`attendBlocks_eq_attendWhole`).
-/
import proofs.«105858_j72662256714429_2_alg».proof.Proof.SigmoidAttention
import proofs.«105858_j72662256714429_2_alg».proof.Proof.LibIsReal
import proofs.«105858_j72662256714429_2_alg».proof.Proof.LibRealScale

noncomputable section

open scoped BigOperators

namespace Cert.Arrange

open Cert.SigmoidAttention Cert.EdgeLoss Cert.RealScale Idealize.ShloMosaic Idealize.ShloMosaic.ValueIdx

/-- A projection of real rows by a real matrix with a real bias has real entries: each is a finite sum of products
    of real numbers plus a real number. -/
theorem isReal_proj (X : Rows.Idx → EReal) (W : Weights.Idx → EReal) (β : Bias.Idx → EReal)
    (hX : ∀ i, IsReal (X i)) (hW : ∀ i, IsReal (W i)) (hβ : ∀ i, IsReal (β i))
    (b : Fin 4) (s : Fin 4096) (e : Fin 1024) : IsReal (proj X W β b s e) := by
  unfold proj
  exact (isReal_sum _ _ fun d _ => (hX (ix3 b s d)).mul (hW (ix2 d e))).add (hβ (ix1 e))

/-- For real queries, keys and scale, scaling every query entry before the inner product gives the same score as
    scaling the finished inner product. -/
theorem scoreBefore_eq_scoreAfter (c : EReal) (Q K : Coords) (hc : IsReal c)
    (hQ : ∀ b s d, IsReal (Q b s d)) (hK : ∀ b s d, IsReal (K b s d)) :
    scoreBefore c Q K = scoreAfter c Q K := by
  funext b q k
  unfold scoreBefore scoreAfter
  exact scale_sum (fun d => Q b q d) (fun d => K b k d) c (hQ b q) (hK b k) hc

/-- Entry `k'` of key block `kb` is row `1024 kb + k'`; every one of the 4096 rows is such an entry exactly once
    (quotient and remainder by 1024). -/
def keyEquiv : Fin 4 × Fin 1024 ≃ Fin 4096 where
  toFun p := keyAt p.1 p.2
  invFun k := (⟨k.val / 1024, by omega⟩, ⟨k.val % 1024, by omega⟩)
  left_inv := by
    rintro ⟨a, b⟩
    refine Prod.ext (Fin.ext ?_) (Fin.ext ?_)
    · show (a.val * 1024 + b.val) / 1024 = a.val
      omega
    · show (a.val * 1024 + b.val) % 1024 = b.val
      omega
  right_inv := by
    intro k
    refine Fin.ext ?_
    show k.val / 1024 * 1024 + k.val % 1024 = k.val
    omega

/-- Summing the 4096 keys in one pass, or four blocks of 1024 in order, is one sum: only commutativity and
    associativity of + are used, so no entry need be finite. -/
theorem attendBlocks_eq_attendWhole (s : Fin 4 → Fin 4096 → Fin 4096 → EReal) (V : Coords) :
    attendBlocks s V = attendWhole s V := by
  funext b q e
  unfold attendBlocks attendWhole
  -- the four blocks, each inside the range, as a sum over `Fin 4`
  have hblock : ∀ kb : Fin 4, attendBlock s V b q e kb.val
      = ∑ k' : Fin 1024, Ideal.logistic (s b q (keyAt kb k')) * V b (keyAt kb k') e := by
    intro kb
    unfold attendBlock
    rw [dif_pos kb.isLt]
  rw [Finset.sum_range, Finset.sum_congr rfl fun kb _ => hblock kb]
  -- the double sum is the sum over pairs, and the pairs are the rows
  calc ∑ kb : Fin 4, ∑ k' : Fin 1024, Ideal.logistic (s b q (keyAt kb k')) * V b (keyAt kb k') e
      = ∑ p : Fin 4 × Fin 1024, Ideal.logistic (s b q (keyAt p.1 p.2)) * V b (keyAt p.1 p.2) e :=
        (Fintype.sum_prod_type' fun kb k' => Ideal.logistic (s b q (keyAt kb k')) * V b (keyAt kb k') e).symm
    _ = ∑ p : Fin 4 × Fin 1024, (fun k => Ideal.logistic (s b q k) * V b k e) (keyEquiv p) := rfl
    _ = ∑ k : Fin 4096, Ideal.logistic (s b q k) * V b k e :=
        Equiv.sum_comp keyEquiv fun k => Ideal.logistic (s b q k) * V b k e

end Cert.Arrange

end
-- ==== Proof.Words.lean ====
/-
  The extended reals that the float literal words of the two programs and of the precondition denote, stated once:
  `1` and `1024` (the reference's scale `1 / sqrt 1024` and the `1`s of its spelled logistic function), `1 / 32`
  (the scale written as the literal `0.03125`), and `+inf` (the bound the precondition compares `|x|` against).
-/
import Idealize.ShloMosaic.PureOps.Ideal

noncomputable section

namespace Cert.Words

open Idealize.ShloMosaic

/-- The word `0x3F800000` denotes `1`. -/
theorem ofBits_one : Ideal.ofBits .f32 0x3F800000#32 = 1 := by
  simp [Ideal.ofBits, Ideal.ieee, -EReal.coe_mul]; norm_num

/-- The word `0x44800000` denotes `1024`. -/
theorem ofBits_1024 : Ideal.ofBits .f32 0x44800000#32 = ((1024 : ℝ) : EReal) := by
  simp [Ideal.ofBits, Ideal.ieee, -EReal.coe_mul]; norm_num

/-- The word `0x3D000000` denotes `1 / 32`: the scale written as the literal `0.03125`. -/
theorem kernelScale_eq : Ideal.ofBits .f32 0x3D000000#32 = ((1 / 32 : ℝ) : EReal) := by
  simp [Ideal.ofBits, Ideal.ieee, -EReal.coe_mul]; norm_num

/-- The word `0x7F800000` denotes `+inf`. -/
theorem inf_word : Ideal.ofBits .f32 0x7F800000#32 = (⊤ : EReal) := by
  simp [Ideal.ofBits, Ideal.ieee]

end Cert.Words

end
-- ==== Proof.Finite.lean ====
/-
  Every entry of the seven argument arrays is a real number.

  The precondition is a printed predicate: for each argument array x it tests |x| < +inf entry by entry, reduces the
  tests by "and" over all axes, and takes the conjunction of the seven results. At the ideal instance an entry is an
  extended real, |x| is the larger of x and -x, and the word 0x7F800000 denotes +inf. So the predicate being 1 says: for
  every entry x of every argument, max x (-x) < +inf. Of the three kinds of extended real, -inf and +inf both have
  max x (-x) = +inf; what remains is a real number.

  The decoding is written once over seven arbitrary arrays of the predicate's shapes ('real_of_fn'), then read at the
  seven argument arrays a launch memory holds on a device ('real_args').
-/
import proofs.«105858_j72662256714429_2_alg».proof.Defs
import proofs.«105858_j72662256714429_2_alg».proof.Proof.Gen.Pre_finite_inputs
import proofs.«105858_j72662256714429_2_alg».proof.Proof.LibIsReal
import proofs.«105858_j72662256714429_2_alg».proof.Proof.Words
import Idealize.ShloMosaic.Lib.ReduceAll
import Idealize.ShloMosaic.Lib.ValueIdx

noncomputable section

namespace Cert.Finite

open Cert.EdgeLoss Idealize.ShloMosaic Idealize.SL.Sem

/-- The word 0x7F800000 read as an f32 is +inf. -/
theorem inf_word : Ideal.ofBits .f32 0x7F800000#32 = (⊤ : EReal) := Cert.Words.inf_word

/-- An extended real whose absolute value (the larger of x and -x) is below +inf is a real number. -/
theorem isReal_of_abs_lt_top (x : EReal) (h : max x (-x) < ⊤) : IsReal x := by
  induction x using EReal.rec with
  | bot => exact absurd h (by simp)
  | coe r => exact ⟨r, rfl⟩
  | top => exact absurd h (by simp)

/-- The element test of the predicate, read back: the comparison |x| < +inf answering 1 makes x a real number. -/
theorem isReal_of_test (x : EReal)
    (h : Ideal.cmp .olt (max x (-x)) (Ideal.ofBits .f32 0x7F800000#32) = 1#1) : IsReal x := by
  rw [inf_word] at h
  refine isReal_of_abs_lt_top x ?_
  unfold Ideal.cmp at h
  by_contra hn
  simp [hn] at h

/-- The scalar shape has one index. -/
instance subsingleton_scalar_idx : Subsingleton Cert.Pre_finite_inputs.S_.Idx :=
  ⟨fun a b => funext fun d => d.elim0⟩

/-- One argument's test: the "and" over all axes of the entrywise |x| < +inf being 1 makes every entry a real number. -/
theorem real_of_all {s : Shape} {axes : List (Fin s.rank)} (hb : Cert.Pre_finite_inputs.S_.BroadcastsInDim s (![] : Fin 0 → Fin s.rank))
    (hr : s.ReducesTo axes Cert.Pre_finite_inputs.S_) (hu : 0 < Cert.Pre_finite_inputs.S_.numel) (x : FVec Ideal s .f32)
    (e : Host.reduce IntOp.andi
          (cmpf .olt (Host.absf x) (broadcastInDim s ![] hb (constant (F := Ideal) Cert.Pre_finite_inputs.S_ .f32 0x7F800000#32)))
          (constantI Cert.Pre_finite_inputs.S_ 1 1#1) hr hu ValueIdx.ix0 = 1#1) :
    ∀ i, IsReal (x i) := fun i =>
  isReal_of_test (x i) (Host.reduce_andi_all _ _ hr hu ValueIdx.ix0 e i)

/-- The "and" of two one-bit arrays at an index is the "and" of the bits. -/
theorem andi_at {s : Shape} (a b : IVec s 1) (i : s.Idx) : andi a b i = IntOp.andi (a i) (b i) := rfl

/-- THE PREDICATE DECODED, over any seven arrays of its shapes: if it answers 1, every entry of each is a real number. -/
theorem real_of_fn [Cert.Pre_finite_inputs.Facts]
    (x0 : FVec Ideal Cert.Pre_finite_inputs.S4x4096x1024 .f32) (x1 : FVec Ideal Cert.Pre_finite_inputs.S1024x1024 .f32)
    (x2 : FVec Ideal Cert.Pre_finite_inputs.S1024 .f32) (x3 : FVec Ideal Cert.Pre_finite_inputs.S1024x1024 .f32)
    (x4 : FVec Ideal Cert.Pre_finite_inputs.S1024 .f32) (x5 : FVec Ideal Cert.Pre_finite_inputs.S1024x1024 .f32)
    (x6 : FVec Ideal Cert.Pre_finite_inputs.S1024 .f32)
    (h : Cert.Pre_finite_inputs.fn (F := Ideal) x0 x1 x2 x3 x4 x5 x6 = fun _ => 1#1) :
    (∀ i, IsReal (x0 i)) ∧ (∀ i, IsReal (x1 i)) ∧ (∀ i, IsReal (x2 i)) ∧ (∀ i, IsReal (x3 i))
      ∧ (∀ i, IsReal (x4 i)) ∧ (∀ i, IsReal (x5 i)) ∧ (∀ i, IsReal (x6 i)) := by
  have e := congrFun h ValueIdx.ix0
  dsimp only [Cert.Pre_finite_inputs.fn, Cert.Pre_finite_inputs.fn_part1] at e
  simp only [andi_at, IntOp.andi_eq_one] at e
  obtain ⟨⟨⟨⟨⟨⟨e0, e1⟩, e2⟩, e3⟩, e4⟩, e5⟩, e6⟩ := e
  exact ⟨real_of_all _ _ _ x0 e0, real_of_all _ _ _ x1 e1, real_of_all _ _ _ x2 e2, real_of_all _ _ _ x3 e3,
    real_of_all _ _ _ x4 e4, real_of_all _ _ _ x5 e5, real_of_all _ _ _ x6 e6⟩

/-- On every device, every entry of each of the seven argument arrays of a launch memory satisfying the precondition is
    a real number. -/
theorem real_args (hK : Cert.KernelIdeal.Facts) (hP : Cert.Pre_finite_inputs.Facts)
    (m : (ℓ : Loc Cert.KernelIdeal.nD Cert.KernelIdeal.τ Cert.KernelIdeal.sig) → Buf (Elt Ideal) ℓ)
    (h : Cert.Pre_KernelIdeal (hPre_finite_inputs := hP) m) (c : Dev Cert.KernelIdeal.nD) :
    (∀ i, IsReal (m ((c.tc : Thread Cert.KernelIdeal.nD Cert.KernelIdeal.τ).loc Cert.KernelIdeal.main_arg0) i))
      ∧ (∀ i, IsReal (m ((c.tc : Thread Cert.KernelIdeal.nD Cert.KernelIdeal.τ).loc Cert.KernelIdeal.main_arg1) i))
      ∧ (∀ i, IsReal (m ((c.tc : Thread Cert.KernelIdeal.nD Cert.KernelIdeal.τ).loc Cert.KernelIdeal.main_arg2) i))
      ∧ (∀ i, IsReal (m ((c.tc : Thread Cert.KernelIdeal.nD Cert.KernelIdeal.τ).loc Cert.KernelIdeal.main_arg3) i))
      ∧ (∀ i, IsReal (m ((c.tc : Thread Cert.KernelIdeal.nD Cert.KernelIdeal.τ).loc Cert.KernelIdeal.main_arg4) i))
      ∧ (∀ i, IsReal (m ((c.tc : Thread Cert.KernelIdeal.nD Cert.KernelIdeal.τ).loc Cert.KernelIdeal.main_arg5) i))
      ∧ (∀ i, IsReal (m ((c.tc : Thread Cert.KernelIdeal.nD Cert.KernelIdeal.τ).loc Cert.KernelIdeal.main_arg6) i)) :=
  real_of_fn (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6)) (h c)

/-- The same, read at coordinates: the entry of each argument array at explicit coordinates is a real number. -/
theorem real_args_ix (hK : Cert.KernelIdeal.Facts) (hP : Cert.Pre_finite_inputs.Facts)
    (m : (ℓ : Loc Cert.KernelIdeal.nD Cert.KernelIdeal.τ Cert.KernelIdeal.sig) → Buf (Elt Ideal) ℓ)
    (h : Cert.Pre_KernelIdeal (hPre_finite_inputs := hP) m) (c : Dev Cert.KernelIdeal.nD) :
    (∀ (a : Fin 4) (b : Fin 4096) (d : Fin 1024),
        IsReal (m ((c.tc : Thread Cert.KernelIdeal.nD Cert.KernelIdeal.τ).loc Cert.KernelIdeal.main_arg0) (ValueIdx.ix3 a b d)))
      ∧ (∀ (a b : Fin 1024), IsReal (m ((c.tc : Thread Cert.KernelIdeal.nD Cert.KernelIdeal.τ).loc Cert.KernelIdeal.main_arg1) (ValueIdx.ix2 a b)))
      ∧ (∀ (a : Fin 1024), IsReal (m ((c.tc : Thread Cert.KernelIdeal.nD Cert.KernelIdeal.τ).loc Cert.KernelIdeal.main_arg2) (ValueIdx.ix1 a)))
      ∧ (∀ (a b : Fin 1024), IsReal (m ((c.tc : Thread Cert.KernelIdeal.nD Cert.KernelIdeal.τ).loc Cert.KernelIdeal.main_arg3) (ValueIdx.ix2 a b)))
      ∧ (∀ (a : Fin 1024), IsReal (m ((c.tc : Thread Cert.KernelIdeal.nD Cert.KernelIdeal.τ).loc Cert.KernelIdeal.main_arg4) (ValueIdx.ix1 a)))
      ∧ (∀ (a b : Fin 1024), IsReal (m ((c.tc : Thread Cert.KernelIdeal.nD Cert.KernelIdeal.τ).loc Cert.KernelIdeal.main_arg5) (ValueIdx.ix2 a b)))
      ∧ (∀ (a : Fin 1024), IsReal (m ((c.tc : Thread Cert.KernelIdeal.nD Cert.KernelIdeal.τ).loc Cert.KernelIdeal.main_arg6) (ValueIdx.ix1 a))) := by
  obtain ⟨h0, h1, h2, h3, h4, h5, h6⟩ := real_args hK hP m h c
  exact ⟨fun a b d => h0 (ValueIdx.ix3 a b d), fun a b => h1 (ValueIdx.ix2 a b), fun a => h2 (ValueIdx.ix1 a),
    fun a b => h3 (ValueIdx.ix2 a b), fun a => h4 (ValueIdx.ix1 a), fun a b => h5 (ValueIdx.ix2 a b), fun a => h6 (ValueIdx.ix1 a)⟩

end Cert.Finite

end
-- ==== Proof.RefValue.lean ====
/-
  The reference program's result, entry by entry, is sigmoid attention in its whole-pass arrangement:
  the three projections `X W + β`, the score scaled after the inner product by `1 / sqrt 1024`,
  the logistic weight spelled `1 / (1 + exp (-s))`, and one sum over the 4096 key rows.
-/
import proofs.«105858_j72662256714429_2_alg».proof.Proof.Gen.ReferenceIdeal.Read
import proofs.«105858_j72662256714429_2_alg».proof.Proof.SigmoidAttention
import proofs.«105858_j72662256714429_2_alg».proof.Proof.Words

noncomputable section

open scoped BigOperators

namespace Cert.RefValue

open Cert.ReferenceIdeal Cert.ReferenceIdeal.Read Cert.SigmoidAttention Idealize.ShloMosaic Idealize.ShloMosaic.ValueIdx

/-! ## The two scales -/

/-- The word `0x3D000000` denotes `1 / 32`: the scale written as the literal `0.03125`. -/
theorem kernelScale_eq : Ideal.ofBits .f32 0x3D000000#32 = ((1 / 32 : ℝ) : EReal) := Cert.Words.kernelScale_eq

/-- The reference's scale as the program spells it. -/
def refScale : EReal := Ideal.div (Ideal.ofBits .f32 0x3F800000#32) (Ideal.sqrt (Ideal.ofBits .f32 0x44800000#32))

/-- `1 / sqrt 1024 = 1 / 32`. -/
theorem refScale_eq : refScale = ((1 / 32 : ℝ) : EReal) := by
  have h32 : Real.sqrt 1024 = 32 := by
    rw [show (1024 : ℝ) = 32 ^ 2 by norm_num]
    exact Real.sqrt_sq (by norm_num)
  unfold refScale
  rw [Cert.Words.ofBits_one, Cert.Words.ofBits_1024, Ideal.sqrt_coe, if_neg (by norm_num), h32,
    Ideal.div_coe (by norm_num : (32 : ℝ) ≠ 0), one_mul]

/-! ## The index functions of the contractions and broadcasts, at coordinates -/

/-- The query projection's left operand at feature `d`: the row's entry `d`. -/
theorem lidx_v0 (b : Fin 4) (s : Fin 4096) (e d : Fin 1024) : lidx_main_v0 (ix3 b s e) d = ix3 b s d :=
  funext fun a => Fin.ext (by match a with | ⟨0, _⟩ => rfl | ⟨1, _⟩ => rfl | ⟨2, _⟩ => rfl)
/-- The query projection's right operand at feature `d`: the matrix's entry `(d, e)`. -/
theorem ridx_v0 (b : Fin 4) (s : Fin 4096) (e d : Fin 1024) : ridx_main_v0 (ix3 b s e) d = ix2 d e :=
  funext fun a => Fin.ext (by match a with | ⟨0, _⟩ => rfl | ⟨1, _⟩ => rfl)
/-- The query bias, broadcast twice, is read at the output feature. -/
theorem bidx_v2 (b : Fin 4) (s : Fin 4096) (e : Fin 1024) : idx_main_v1 (idx_main_v2 (ix3 b s e)) = ix1 e :=
  funext fun a => Fin.ext (by match a with | ⟨0, _⟩ => rfl)

/-- The key projection's left operand. -/
theorem lidx_v4 (b : Fin 4) (s : Fin 4096) (e d : Fin 1024) : lidx_main_v4 (ix3 b s e) d = ix3 b s d :=
  funext fun a => Fin.ext (by match a with | ⟨0, _⟩ => rfl | ⟨1, _⟩ => rfl | ⟨2, _⟩ => rfl)
/-- The key projection's right operand. -/
theorem ridx_v4 (b : Fin 4) (s : Fin 4096) (e d : Fin 1024) : ridx_main_v4 (ix3 b s e) d = ix2 d e :=
  funext fun a => Fin.ext (by match a with | ⟨0, _⟩ => rfl | ⟨1, _⟩ => rfl)
/-- The key bias is read at the output feature. -/
theorem bidx_v6 (b : Fin 4) (s : Fin 4096) (e : Fin 1024) : idx_main_v5 (idx_main_v6 (ix3 b s e)) = ix1 e :=
  funext fun a => Fin.ext (by match a with | ⟨0, _⟩ => rfl)

/-- The value projection's left operand. -/
theorem lidx_v8 (b : Fin 4) (s : Fin 4096) (e d : Fin 1024) : lidx_main_v8 (ix3 b s e) d = ix3 b s d :=
  funext fun a => Fin.ext (by match a with | ⟨0, _⟩ => rfl | ⟨1, _⟩ => rfl | ⟨2, _⟩ => rfl)
/-- The value projection's right operand. -/
theorem ridx_v8 (b : Fin 4) (s : Fin 4096) (e d : Fin 1024) : ridx_main_v8 (ix3 b s e) d = ix2 d e :=
  funext fun a => Fin.ext (by match a with | ⟨0, _⟩ => rfl | ⟨1, _⟩ => rfl)
/-- The value bias is read at the output feature. -/
theorem bidx_v10 (b : Fin 4) (s : Fin 4096) (e : Fin 1024) : idx_main_v9 (idx_main_v10 (ix3 b s e)) = ix1 e :=
  funext fun a => Fin.ext (by match a with | ⟨0, _⟩ => rfl)

/-- The score's left operand at feature `d`: query row `q`, entry `d`. -/
theorem lidx_v14 (b : Fin 4) (q k : Fin 4096) (d : Fin 1024) : lidx_main_v14 (ix3 b q k) d = ix3 b q d :=
  funext fun a => Fin.ext (by match a with | ⟨0, _⟩ => rfl | ⟨1, _⟩ => rfl | ⟨2, _⟩ => rfl)
/-- The score's right operand at feature `d`: key row `k`, entry `d`. -/
theorem ridx_v14 (b : Fin 4) (q k : Fin 4096) (d : Fin 1024) : ridx_main_v14 (ix3 b q k) d = ix3 b k d :=
  funext fun a => Fin.ext (by match a with | ⟨0, _⟩ => rfl | ⟨1, _⟩ => rfl | ⟨2, _⟩ => rfl)

/-- The result's left operand at key row `k`: the weight of key `k` for query `q`. -/
theorem lidx_v23 (b : Fin 4) (q : Fin 4096) (e : Fin 1024) (k : Fin 4096) : lidx_main_v23 (ix3 b q e) k = ix3 b q k :=
  funext fun a => Fin.ext (by match a with | ⟨0, _⟩ => rfl | ⟨1, _⟩ => rfl | ⟨2, _⟩ => rfl)
/-- The result's right operand at key row `k`: the value row `k`, entry `e`. -/
theorem ridx_v23 (b : Fin 4) (q : Fin 4096) (e : Fin 1024) (k : Fin 4096) : ridx_main_v23 (ix3 b q e) k = ix3 b k e :=
  funext fun a => Fin.ext (by match a with | ⟨0, _⟩ => rfl | ⟨1, _⟩ => rfl | ⟨2, _⟩ => rfl)

/-! ## The three projections -/

/-- The query array's entry is the projection `X W₁ + β₁`. -/
theorem query_apply (x0 : FVec Ideal S4x4096x1024 .f32) (x1 : FVec Ideal S1024x1024 .f32) (x2 : FVec Ideal S1024 .f32)
    (b : Fin 4) (s : Fin 4096) (e : Fin 1024) :
    val_main_v3 (F := Ideal) x0 x1 x2 (ix3 b s e) = proj x0 x1 x2 b s e := by
  rw [val_main_v3_apply, val_main_v0_apply, val_main_v2_apply, val_main_v1_apply, bidx_v2]
  show (∑ d : Fin 1024, x0 (lidx_main_v0 (ix3 b s e) d) * x1 (ridx_main_v0 (ix3 b s e) d)) + x2 (ix1 e) = _
  unfold proj
  congr 1
  refine Finset.sum_congr rfl fun d _ => ?_
  rw [lidx_v0, ridx_v0]

/-- The key array's entry is the projection `X W₂ + β₂`. -/
theorem key_apply (x0 : FVec Ideal S4x4096x1024 .f32) (x3 : FVec Ideal S1024x1024 .f32) (x4 : FVec Ideal S1024 .f32)
    (b : Fin 4) (s : Fin 4096) (e : Fin 1024) :
    val_main_v7 (F := Ideal) x0 x3 x4 (ix3 b s e) = proj x0 x3 x4 b s e := by
  rw [val_main_v7_apply, val_main_v4_apply, val_main_v6_apply, val_main_v5_apply, bidx_v6]
  show (∑ d : Fin 1024, x0 (lidx_main_v4 (ix3 b s e) d) * x3 (ridx_main_v4 (ix3 b s e) d)) + x4 (ix1 e) = _
  unfold proj
  congr 1
  refine Finset.sum_congr rfl fun d _ => ?_
  rw [lidx_v4, ridx_v4]

/-- The value array's entry is the projection `X W₃ + β₃`. -/
theorem value_apply (x0 : FVec Ideal S4x4096x1024 .f32) (x5 : FVec Ideal S1024x1024 .f32) (x6 : FVec Ideal S1024 .f32)
    (b : Fin 4) (s : Fin 4096) (e : Fin 1024) :
    val_main_v11 (F := Ideal) x0 x5 x6 (ix3 b s e) = proj x0 x5 x6 b s e := by
  rw [val_main_v11_apply, val_main_v8_apply, val_main_v10_apply, val_main_v9_apply, bidx_v10]
  show (∑ d : Fin 1024, x0 (lidx_main_v8 (ix3 b s e) d) * x5 (ridx_main_v8 (ix3 b s e) d)) + x6 (ix1 e) = _
  unfold proj
  congr 1
  refine Finset.sum_congr rfl fun d _ => ?_
  rw [lidx_v8, ridx_v8]

/-! ## The score and the weight -/

/-- The broadcast scale is the scale the program spells, at every entry. -/
theorem scale_apply (i : S4x4096x4096.Idx) : val_main_v15 (F := Ideal) i = refScale := by
  rw [val_main_v15_apply, val_main_v13_apply, val_main_cst_0_apply, val_main_v12_apply, val_main_cst_apply]
  rfl

/-- The scaled score's entry: the inner product of the query and key rows, then the scale. -/
theorem score_apply (x0 : FVec Ideal S4x4096x1024 .f32) (x1 : FVec Ideal S1024x1024 .f32) (x2 : FVec Ideal S1024 .f32)
    (x3 : FVec Ideal S1024x1024 .f32) (x4 : FVec Ideal S1024 .f32) (b : Fin 4) (q k : Fin 4096) :
    val_main_v16 (F := Ideal) x0 x1 x2 x3 x4 (ix3 b q k)
      = scoreAfter refScale (proj x0 x1 x2) (proj x0 x3 x4) b q k := by
  rw [val_main_v16_apply, val_main_v14_apply, scale_apply]
  show (∑ d : Fin 1024, val_main_v3 (F := Ideal) x0 x1 x2 (lidx_main_v14 (ix3 b q k) d)
      * val_main_v7 (F := Ideal) x0 x3 x4 (ridx_main_v14 (ix3 b q k) d)) * refScale = _
  unfold scoreAfter
  congr 1
  refine Finset.sum_congr rfl fun d _ => ?_
  rw [lidx_v14, ridx_v14, query_apply, key_apply]

/-- The weight's entry: the program's `1 / (1 + exp (-s))` is the logistic function of the score. -/
theorem weight_apply (x0 : FVec Ideal S4x4096x1024 .f32) (x1 : FVec Ideal S1024x1024 .f32) (x2 : FVec Ideal S1024 .f32)
    (x3 : FVec Ideal S1024x1024 .f32) (x4 : FVec Ideal S1024 .f32) (b : Fin 4) (q k : Fin 4096) :
    val_main_v22 (F := Ideal) x0 x1 x2 x3 x4 (ix3 b q k)
      = Ideal.logistic (scoreAfter refScale (proj x0 x1 x2) (proj x0 x3 x4) b q k) := by
  rw [val_main_v22_apply, val_main_v21_apply, val_main_cst_2_apply, val_main_v20_apply, val_main_v19_apply,
    val_main_cst_1_apply, val_main_v18_apply, val_main_v17_apply, score_apply]
  show Ideal.div (Ideal.ofBits .f32 0x3F800000#32) (Ideal.ofBits .f32 0x3F800000#32 + Ideal.exp (-_)) = _
  rw [Cert.Words.ofBits_one]
  rfl

/-! ## The result -/

/-- THE REFERENCE AT AN ENTRY: the whole-pass sum over the key rows of the logistic weights times the values. -/
theorem ref_apply (x0 : FVec Ideal S4x4096x1024 .f32) (x1 : FVec Ideal S1024x1024 .f32) (x2 : FVec Ideal S1024 .f32)
    (x3 : FVec Ideal S1024x1024 .f32) (x4 : FVec Ideal S1024 .f32) (x5 : FVec Ideal S1024x1024 .f32)
    (x6 : FVec Ideal S1024 .f32) (b : Fin 4) (q : Fin 4096) (e : Fin 1024) :
    Read.val_main_v23 (F := Ideal) x0 x1 x2 x3 x4 x5 x6 (ix3 b q e)
      = attendWhole (scoreAfter refScale (proj x0 x1 x2) (proj x0 x3 x4)) (proj x0 x5 x6) b q e := by
  rw [val_main_v23_apply]
  unfold attendWhole
  refine Finset.sum_congr rfl fun k _ => ?_
  rw [lidx_v23, ridx_v23, weight_apply, value_apply]

/-- THE REFERENCE AS AN ARRAY: the same, as a function of the index. -/
theorem ref_eq (x0 : FVec Ideal S4x4096x1024 .f32) (x1 : FVec Ideal S1024x1024 .f32) (x2 : FVec Ideal S1024 .f32)
    (x3 : FVec Ideal S1024x1024 .f32) (x4 : FVec Ideal S1024 .f32) (x5 : FVec Ideal S1024x1024 .f32)
    (x6 : FVec Ideal S1024 .f32) :
    Read.val_main_v23 (F := Ideal) x0 x1 x2 x3 x4 x5 x6
      = fun j => attendWhole (scoreAfter refScale (proj x0 x1 x2) (proj x0 x3 x4)) (proj x0 x5 x6) (j 0) (j 1) (j 2) := by
  funext j
  exact (congrArg (Read.val_main_v23 (F := Ideal) x0 x1 x2 x3 x4 x5 x6) (eq_ix3 (n0 := 4) (n1 := 4096) (n2 := 1024) j)).trans
    (ref_apply x0 x1 x2 x3 x4 x5 x6 (j 0) (j 1) (j 2))

end Cert.RefValue

end
-- ==== Proof.KernelValue.lean ====
/-
  The idealized kernel's result is the shared specification.

  The attention region reads what the projection region wrote: the stored queries are the query projection times the
  scale 1/32, the stored keys and values are the key and value projections. So its score of a query row against a key
  row is the inner product with the scale inside, and its result is the sum over four key blocks. Two laws join this to
  the specification. Summing the keys in four blocks or in one pass is one sum (only + is rearranged). Moving the
  scale out of the inner product needs every term to be a real number: the inputs are finite by the precondition, so
  every projected entry is a finite sum of products of real numbers plus a real number, and 1/32 is real. Last, the
  reference's scale 1 / sqrt 1024 is the same number 1/32.
-/
import proofs.«105858_j72662256714429_2_alg».proof.Proof.KernelRun
import proofs.«105858_j72662256714429_2_alg».proof.Proof.AttnAccum
import proofs.«105858_j72662256714429_2_alg».proof.Proof.ProjArrays
import proofs.«105858_j72662256714429_2_alg».proof.Proof.Arrange
import proofs.«105858_j72662256714429_2_alg».proof.Proof.Finite
import proofs.«105858_j72662256714429_2_alg».proof.Proof.RefValue
import proofs.«105858_j72662256714429_2_alg».proof.Proof.Words

noncomputable section

open scoped BigOperators

namespace Cert.KernelValue

open Cert.KernelIdeal Cert.KernelIdeal.Gen Cert.SigmoidAttention Cert.EdgeLoss
open Idealize.ShloMosaic Idealize.ShloMosaic.TcCoe Idealize.ShloMosaic.ValueIdx Idealize.SL.Sem

variable (m : (ℓ : Loc nD τ sig) → Buf (Elt Ideal) ℓ) (ρ : Dev nD → PrngReg)

/-- The specification at a device: sigmoid attention of the launch memory's seven argument arrays, the scale applied
    to the finished score and the keys summed in one pass. -/
def spec (c : Dev nD) : S4x4096x1024.Idx → EReal := fun j =>
  attendWhole (scoreAfter RefValue.refScale (proj (m ((c.tc : Thread nD τ).loc main_arg0)) (m ((c.tc : Thread nD τ).loc main_arg1)) (m ((c.tc : Thread nD τ).loc main_arg2))) (proj (m ((c.tc : Thread nD τ).loc main_arg0)) (m ((c.tc : Thread nD τ).loc main_arg3)) (m ((c.tc : Thread nD τ).loc main_arg4))))
    (proj (m ((c.tc : Thread nD τ).loc main_arg0)) (m ((c.tc : Thread nD τ).loc main_arg5)) (m ((c.tc : Thread nD τ).loc main_arg6))) (j 0) (j 1) (j 2)

/-- The values the attention region reads are the value projection. -/
theorem values_eq (c : Dev nD) : AttnAccum.values (V2 m ρ) c = proj (m ((c.tc : Thread nD τ).loc main_arg0)) (m ((c.tc : Thread nD τ).loc main_arg5)) (m ((c.tc : Thread nD τ).loc main_arg6)) := by
  funext b s d
  show V2 m ρ c main_v6_2 (ix3 b s d) = _
  rw [show V2 m ρ c main_v6_2 = _ from (W2_arr m ρ c 9).trans (ProjArrays.values_array m ρ c)]
  rfl

/-- The keys it reads are the key projection. -/
theorem keys_eq (c : Dev nD) : AttnAccum.keys (V2 m ρ) c = proj (m ((c.tc : Thread nD τ).loc main_arg0)) (m ((c.tc : Thread nD τ).loc main_arg3)) (m ((c.tc : Thread nD τ).loc main_arg4)) := by
  funext b s d
  show V2 m ρ c main_v6_1 (ix3 b s d) = _
  rw [show V2 m ρ c main_v6_1 = _ from (W2_arr m ρ c 8).trans (ProjArrays.keys_array m ρ c)]
  rfl

/-- The queries it reads are the query projection times the scale. -/
theorem queries_eq (c : Dev nD) (b : Fin 4) (s : Fin 4096) (d : Fin 1024) :
    AttnAccum.queries (V2 m ρ) c b s d = proj (m ((c.tc : Thread nD τ).loc main_arg0)) (m ((c.tc : Thread nD τ).loc main_arg1)) (m ((c.tc : Thread nD τ).loc main_arg2)) b s d * Ideal.ofBits .f32 0x3D000000#32 := by
  show V2 m ρ c main_v6_0 (ix3 b s d) = _
  rw [show V2 m ρ c main_v6_0 = _ from (W2_arr m ρ c 7).trans (ProjArrays.queries_array m ρ c)]
  rfl

/-- So its score has the scale inside the inner product. -/
theorem score_eq (c : Dev nD) : AttnAccum.score (V2 m ρ) c
    = scoreBefore (Ideal.ofBits .f32 0x3D000000#32) (proj (m ((c.tc : Thread nD τ).loc main_arg0)) (m ((c.tc : Thread nD τ).loc main_arg1)) (m ((c.tc : Thread nD τ).loc main_arg2))) (proj (m ((c.tc : Thread nD τ).loc main_arg0)) (m ((c.tc : Thread nD τ).loc main_arg3)) (m ((c.tc : Thread nD τ).loc main_arg4))) := by
  funext b q k
  unfold AttnAccum.score scoreBefore
  refine Finset.sum_congr rfl fun d _ => ?_
  rw [queries_eq m ρ c b q d, keys_eq m ρ c]

/-- Under the precondition the kernel's result array is the specification. -/
theorem kernel_result (hpre : Cert.Pre_KernelIdeal m) (c : Dev nD) : (dat1 (V2 m ρ) c).arrAt 3 cfg1.N = spec m c := by
  obtain ⟨h0, h1, h2, h3, h4, -, -⟩ := Finite.real_args Cert.KernelIdeal.Gen.facts Cert.Pre_finite_inputs.Gen.facts m hpre c
  have hκ : IsReal (Ideal.ofBits .f32 0x3D000000#32) := ⟨1 / 32, Words.kernelScale_eq⟩
  rw [AttnAccum.result_array]
  funext j
  unfold AttnAccum.result spec
  rw [score_eq m ρ c, values_eq m ρ c, Arrange.attendBlocks_eq_attendWhole,
    Arrange.scoreBefore_eq_scoreAfter _ _ _ hκ (Arrange.isReal_proj _ _ _ h0 h1 h2) (Arrange.isReal_proj _ _ _ h0 h3 h4),
    Words.kernelScale_eq.trans RefValue.refScale_eq.symm]

end Cert.KernelValue

end
-- ==== Proof.lean ====
/-
  The certificate of a fused sigmoid-attention kernel against its plain reference.

  Both programs project 4 sequences of 4096 rows of 1024 features to queries, keys and values (`X W + β`), weight every
  key row for every query row by the logistic function of their inner product over the features times 1/32, with no
  normalisation over the keys, and return for every query row the weighted sum of the value rows.

  The kernel does it in two regions. The first stores the three projections, the queries already multiplied by 1/32. The
  second walks a grid of (sequence, block of 1024 query rows, block of 1024 key rows), accumulating into a result block
  that it zeroes at the first key block and writes back after the fourth. The reference contracts whole arrays, scales
  the finished scores by 1 / sqrt 1024, spells the logistic function as 1 / (1 + exp (-s)), and sums all 4096 keys at
  once. At the ideal values a change of float format is the identity, the spelled logistic function is the logistic
  function, sqrt 1024 is 32, and the two differ only in where the scale sits and in the order of the sum over keys. The
  order of a sum never matters; moving the scale across the inner product needs the summands real, which the
  precondition (every input finite) gives.

  The three frames are the generated runs. Nothing was rewritten in the kernel's idealization, so that claim is empty.
-/
import proofs.«105858_j72662256714429_2_alg».proof.Defs
import proofs.«105858_j72662256714429_2_alg».proof.Proof.Gen.Kernel
import proofs.«105858_j72662256714429_2_alg».proof.Proof.Gen.Kernel.Skeleton
import proofs.«105858_j72662256714429_2_alg».proof.Proof.Gen.Kernel.Launch
import proofs.«105858_j72662256714429_2_alg».proof.Proof.Gen.Kernel.Points
import proofs.«105858_j72662256714429_2_alg».proof.Proof.Gen.Kernel.Frame
import proofs.«105858_j72662256714429_2_alg».proof.Proof.Gen.KernelIdeal
import proofs.«105858_j72662256714429_2_alg».proof.Proof.Gen.KernelIdeal.Skeleton
import proofs.«105858_j72662256714429_2_alg».proof.Proof.Gen.KernelIdeal.Launch
import proofs.«105858_j72662256714429_2_alg».proof.Proof.Gen.KernelIdeal.Points
import proofs.«105858_j72662256714429_2_alg».proof.Proof.Gen.KernelIdeal.Frame
import proofs.«105858_j72662256714429_2_alg».proof.Proof.Gen.ReferenceIdeal
import proofs.«105858_j72662256714429_2_alg».proof.Proof.Gen.ReferenceIdeal.Run
import proofs.«105858_j72662256714429_2_alg».proof.Proof.Gen.ReferenceIdeal.Read
import proofs.«105858_j72662256714429_2_alg».proof.Proof.Gen.Pre_finite_inputs
import proofs.«105858_j72662256714429_2_alg».proof.Proof.KernelRun
import proofs.«105858_j72662256714429_2_alg».proof.Proof.KernelValue
import proofs.«105858_j72662256714429_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the specification of the kernel's launch memory: the kernel's by its two
    regions read back, the reference's by its operations read one at a time, from a memory that agrees on the arguments. -/
theorem algebraic : Cert.algebraic_KernelIdeal_ReferenceIdeal := by
  intro m ρ m' ρ' hpre hagree
  refine ⟨fun c => Cert.KernelValue.spec m c, ?_, ?_⟩
  · exact (θ_run Cert.KernelIdeal.defs _ _).mono
      (fun r h c => ⟨(h c).1.trans (Cert.KernelValue.kernel_result m ρ hpre c), (h c).2⟩)
      (Cert.KernelRun.run_result (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2.1,
      (hagree c).2.2.2.2.2.2]
    exact (Cert.ReferenceIdeal.Read.val_main_v23_eq _ _ _ _ _ _ _).trans (Cert.RefValue.ref_eq _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
